-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S320000 : Shape := ⟨1, ![320000]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S3x256x256 .f32) (main_arg6 : FVec F S256x128 .f32) (main_arg7 : FVec F S128 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256x256 .f32 := Host.absf main_arg5
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S20000x256 .f32) (main_arg1 : IVec S2x320000 32) (main_arg2 : FVec F S320000 .f32) (main_arg3 : FVec F S3x256x256 .f32) (main_arg4 : FVec F S3x256 .f32) (main_arg5 : FVec F S3x256x256 .f32) (main_arg6 : FVec F S256x128 .f32) (main_arg7 : FVec F S128 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S3x256x256 .f32 := Host.absf main_arg3
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg5 main_arg6 main_arg7 main_v13 main_v16
-- ==== Kernel.lean ====
abbrev S20000x256 : Shape := ⟨2, ![20000, 256]⟩
abbrev S2x320000 : Shape := ⟨2, ![2, 320000]⟩
abbrev S320000 : Shape := ⟨1, ![320000]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S1x320000 : Shape := ⟨2, ![1, 320000]⟩
abbrev S_ : Shape := ⟨0, ![]⟩
abbrev S320000x1 : Shape := ⟨2, ![320000, 1]⟩
abbrev S320000x256 : Shape := ⟨2, ![320000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩
abbrev S20000x128 : Shape := ⟨2, ![20000, 128]⟩
abbrev S2000x128 : Shape := ⟨2, ![2000, 128]⟩
abbrev S1x128 : Shape := ⟨2, ![1, 128]⟩

abbrev nBuf : Space → Nat
  | .hbm => 96
  | .vmem => 33
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000, .f32⟩
  | .hbm, ⟨3, _⟩ => ⟨S3x256x256, .f32⟩
  | .hbm, ⟨4, _⟩ => ⟨S3x256, .f32⟩
  | .hbm, ⟨5, _⟩ => ⟨S3x256x256, .f32⟩
  | .hbm, ⟨6, _⟩ => ⟨S256x128, .f32⟩
  | .hbm, ⟨7, _⟩ => ⟨S128, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S320000x1, .f32⟩
  | .hbm, ⟨22, _⟩ => ⟨S320000x256, .f32⟩
  | .hbm, ⟨23, _⟩ => ⟨S320000x256, .f32⟩
  | .hbm, ⟨24, _⟩ => ⟨S_, .f32⟩
  | .hbm, ⟨25, _⟩ => ⟨S20000x256, .f32⟩
  | .hbm, ⟨26, _⟩ => ⟨S320000x1, .i32⟩
  | .hbm, ⟨27, _⟩ => ⟨S20000x256, .f32⟩
  | .hbm, ⟨28, _⟩ => ⟨S1x256x256, .f32⟩
  | .hbm, ⟨29, _⟩ => ⟨S256x256, .f32⟩
  | .hbm, ⟨30, _⟩ => ⟨S1x256, .f32⟩
  | .hbm, ⟨31, _⟩ => ⟨S256, .f32⟩
  | .hbm, ⟨32, _⟩ => ⟨S1x256x256, .f32⟩
  | .hbm, ⟨33, _⟩ => ⟨S256x256, .f32⟩
  | .hbm, ⟨34, _⟩ => ⟨S20000x256, .bf16⟩
  | .hbm, ⟨35, _⟩ => ⟨S20000x256, .bf16⟩
  | .hbm, ⟨36, _⟩ => ⟨S256x256, .bf16⟩
  | .hbm, ⟨37, _⟩ => ⟨S256x256, .bf16⟩
  | .hbm, ⟨38, _⟩ => ⟨S20000x256, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x256, .f32⟩
  | .hbm, ⟨48, _⟩ => ⟨S320000x1, .f32⟩
  | .hbm, ⟨49, _⟩ => ⟨S320000x256, .f32⟩
  | .hbm, ⟨50, _⟩ => ⟨S320000x256, .f32⟩
  | .hbm, ⟨51, _⟩ => ⟨S_, .f32⟩
  | .hbm, ⟨52, _⟩ => ⟨S20000x256, .f32⟩
  | .hbm, ⟨53, _⟩ => ⟨S320000x1, .i32⟩
  | .hbm, ⟨54, _⟩ => ⟨S20000x256, .f32⟩
  | .hbm, ⟨55, _⟩ => ⟨S1x256x256, .f32⟩
  | .hbm, ⟨56, _⟩ => ⟨S256x256, .f32⟩
  | .hbm, ⟨57, _⟩ => ⟨S1x256, .f32⟩
  | .hbm, ⟨58, _⟩ => ⟨S256, .f32⟩
  | .hbm, ⟨59, _⟩ => ⟨S1x256x256, .f32⟩
  | .hbm, ⟨60, _⟩ => ⟨S256x256, .f32⟩
  | .hbm, ⟨61, _⟩ => ⟨S20000x256, .bf16⟩
  | .hbm, ⟨62, _⟩ => ⟨S20000x256, .bf16⟩
  | .hbm, ⟨63, _⟩ => ⟨S256x256, .bf16⟩
  | .hbm, ⟨64, _⟩ => ⟨S256x256, .bf16⟩
  | .hbm, ⟨65, _⟩ => ⟨S20000x256, .f32⟩
  | .hbm, ⟨66, _⟩ => ⟨S_, .i32⟩
  | .hbm, ⟨67, _⟩ => ⟨S320000, .i32⟩
  | .hbm, ⟨68, _⟩ => ⟨S320000, .i1⟩
  | .hbm, ⟨69, _⟩ => ⟨S_, .i32⟩
  | .hbm, ⟨70, _⟩ => ⟨S320000, .i32⟩
  | .hbm, ⟨71, _⟩ => ⟨S320000, .i32⟩
  | .hbm, ⟨72, _⟩ => ⟨S320000, .i32⟩
  | .hbm, ⟨73, _⟩ => ⟨S320000x1, .i32⟩
  | .hbm, ⟨74, _⟩ => ⟨S320000x256, .f32⟩
  | .hbm, ⟨75, _⟩ => ⟨S320000x1, .f32⟩
  | .hbm, ⟨76, _⟩ => ⟨S320000x256, .f32⟩
  | .hbm, ⟨77, _⟩ => ⟨S320000x256, .f32⟩
  | .hbm, ⟨78, _⟩ => ⟨S_, .f32⟩
  | .hbm, ⟨79, _⟩ => ⟨S20000x256, .f32⟩
  | .hbm, ⟨80, _⟩ => ⟨S320000x1, .i32⟩
  | .hbm, ⟨81, _⟩ => ⟨S20000x256, .f32⟩
  | .hbm, ⟨82, _⟩ => ⟨S1x256x256, .f32⟩
  | .hbm, ⟨83, _⟩ => ⟨S256x256, .f32⟩
  | .hbm, ⟨84, _⟩ => ⟨S1x256, .f32⟩
  | .hbm, ⟨85, _⟩ => ⟨S256, .f32⟩
  | .hbm, ⟨86, _⟩ => ⟨S1x256x256, .f32⟩
  | .hbm, ⟨87, _⟩ => ⟨S256x256, .f32⟩
  | .hbm, ⟨88, _⟩ => ⟨S20000x256, .bf16⟩
  | .hbm, ⟨89, _⟩ => ⟨S20000x256, .bf16⟩
  | .hbm, ⟨90, _⟩ => ⟨S256x256, .bf16⟩
  | .hbm, ⟨91, _⟩ => ⟨S256x256, .bf16⟩
  | .hbm, ⟨92, _⟩ => ⟨S20000x256, .f32⟩
  | .hbm, ⟨93, _⟩ => ⟨S20000x256, .bf16⟩
  | .hbm, ⟨94, _⟩ => ⟨S256x128, .bf16⟩
  | .hbm, ⟨95, _⟩ => ⟨S20000x128, .f32⟩
  | .local _ .vmem, ⟨0, _⟩ => ⟨S2000x256, .bf16⟩
  | .local _ .vmem, ⟨1, _⟩ => ⟨S2000x256, .bf16⟩
  | .local _ .vmem, ⟨2, _⟩ => ⟨S2000x256, .bf16⟩
  | .local _ .vmem, ⟨3, _⟩ => ⟨S2000x256, .bf16⟩
  | .local _ .vmem, ⟨4, _⟩ => ⟨S256x256, .bf16⟩
  | .local _ .vmem, ⟨5, _⟩ => ⟨S256x256, .bf16⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S256x256, .bf16⟩
  | .local _ .vmem, ⟨14, _⟩ => ⟨S256x256, .bf16⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x256, .bf16⟩
  | .local _ .vmem, ⟨19, _⟩ => ⟨S2000x256, .bf16⟩
  | .local _ .vmem, ⟨20, _⟩ => ⟨S2000x256, .bf16⟩
  | .local _ .vmem, ⟨21, _⟩ => ⟨S2000x256, .bf16⟩
  | .local _ .vmem, ⟨22, _⟩ => ⟨S256x256, .bf16⟩
  | .local _ .vmem, ⟨23, _⟩ => ⟨S256x256, .bf16⟩
  | .local _ .vmem, ⟨24, _⟩ => ⟨S256, .f32⟩
  | .local _ .vmem, ⟨25, _⟩ => ⟨S2000x256, .f32⟩
  | .local _ .vmem, ⟨26, _⟩ => ⟨S2000x256, .f32⟩
  | .local _ .vmem, ⟨27, _⟩ => ⟨S2000x256, .bf16⟩
  | .local _ .vmem, ⟨28, _⟩ => ⟨S2000x256, .bf16⟩
  | .local _ .vmem, ⟨29, _⟩ => ⟨S256x128, .bf16⟩
  | .local _ .vmem, ⟨30, _⟩ => ⟨S128, .f32⟩
  | .local _ .vmem, ⟨31, _⟩ => ⟨S2000x128, .f32⟩
  | .local _ .vmem, ⟨32, _⟩ => ⟨S2000x128, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_1 : Ref sig .tc := ⟨.hbm, 39, rfl⟩
abbrev main_v28 : Ref sig .tc := ⟨.hbm, 40, rfl⟩
abbrev main_v29 : Ref sig .tc := ⟨.hbm, 41, rfl⟩
abbrev main_c_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_4 : Ref sig .tc := ⟨.hbm, 66, rfl⟩
abbrev main_v52 : Ref sig .tc := ⟨.hbm, 67, rfl⟩
abbrev main_v53 : Ref sig .tc := ⟨.hbm, 68, rfl⟩
abbrev main_c_5 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .bf16 = 32 ∨ (Rect.block (s := S20000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .bf16 = 32 ∨ (Rect.block (s := S20000x256) S2000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .bf16 = 32 ∨ (Rect.block (s := S20000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .bf16 = 32 ∨ (Rect.block (s := S20000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .bf16 = 32 ∨ (Rect.block (s := S20000x256) S2000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .bf16 = 32 ∨ (Rect.block (s := S20000x256) S2000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S20000x256.size a
  hwx2_5 : ∀ i : grid2.Coords, EltTy.bits .f32 = 32 ∨ (Rect.block (s := S20000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .bf16 = 32 ∨ (Rect.block (s := S20000x256) S2000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .bf16 = 32 ∨ (Rect.block (s := S256x128) S256x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S20000x128.size a
  hwx3_3 : ∀ i : grid3.Coords, EltTy.bits .f32 = 32 ∨ (Rect.block (s := S20000x128) S2000x128.size (cc3_transform_3 i) (hinb3_3 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v23) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v71) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v73) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S320000 : Shape := ⟨1, ![320000]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S1x320000 : Shape := ⟨2, ![1, 320000]⟩
abbrev S_ : Shape := ⟨0, ![]⟩
abbrev S320000x1 : Shape := ⟨2, ![320000, 1]⟩
abbrev S320000x256 : Shape := ⟨2, ![320000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S20000x128 : Shape := ⟨2, ![20000, 128]⟩
abbrev S1x128 : Shape := ⟨2, ![1, 128]⟩

abbrev nBuf : Space → Nat
  | .hbm => 112
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000, .f32⟩
  | .hbm, ⟨3, _⟩ => ⟨S3x256x256, .f32⟩
  | .hbm, ⟨4, _⟩ => ⟨S3x256, .f32⟩
  | .hbm, ⟨5, _⟩ => ⟨S3x256x256, .f32⟩
  | .hbm, ⟨6, _⟩ => ⟨S256x128, .f32⟩
  | .hbm, ⟨7, _⟩ => ⟨S128, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S320000x1, .f32⟩
  | .hbm, ⟨22, _⟩ => ⟨S320000x256, .f32⟩
  | .hbm, ⟨23, _⟩ => ⟨S320000x256, .f32⟩
  | .hbm, ⟨24, _⟩ => ⟨S_, .f32⟩
  | .hbm, ⟨25, _⟩ => ⟨S20000x256, .f32⟩
  | .hbm, ⟨26, _⟩ => ⟨S320000x1, .i32⟩
  | .hbm, ⟨27, _⟩ => ⟨S20000x256, .f32⟩
  | .hbm, ⟨28, _⟩ => ⟨S1x256x256, .f32⟩
  | .hbm, ⟨29, _⟩ => ⟨S256x256, .f32⟩
  | .hbm, ⟨30, _⟩ => ⟨S20000x256, .f32⟩
  | .hbm, ⟨31, _⟩ => ⟨S1x256, .f32⟩
  | .hbm, ⟨32, _⟩ => ⟨S256, .f32⟩
  | .hbm, ⟨33, _⟩ => ⟨S1x256, .f32⟩
  | .hbm, ⟨34, _⟩ => ⟨S20000x256, .f32⟩
  | .hbm, ⟨35, _⟩ => ⟨S20000x256, .f32⟩
  | .hbm, ⟨36, _⟩ => ⟨S1x256x256, .f32⟩
  | .hbm, ⟨37, _⟩ => ⟨S256x256, .f32⟩
  | .hbm, ⟨38, _⟩ => ⟨S20000x256, .f32⟩
  | .hbm, ⟨39, _⟩ => ⟨S20000x256, .f32⟩
  | .hbm, ⟨40, _⟩ => ⟨S_, .f32⟩
  | .hbm, ⟨41, _⟩ => ⟨S20000x256, .f32⟩
  | .hbm, ⟨42, _⟩ => ⟨S20000x256, .f32⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S320000x256, .f32⟩
  | .hbm, ⟨52, _⟩ => ⟨S320000x1, .f32⟩
  | .hbm, ⟨53, _⟩ => ⟨S320000x256, .f32⟩
  | .hbm, ⟨54, _⟩ => ⟨S320000x256, .f32⟩
  | .hbm, ⟨55, _⟩ => ⟨S_, .f32⟩
  | .hbm, ⟨56, _⟩ => ⟨S20000x256, .f32⟩
  | .hbm, ⟨57, _⟩ => ⟨S320000x1, .i32⟩
  | .hbm, ⟨58, _⟩ => ⟨S20000x256, .f32⟩
  | .hbm, ⟨59, _⟩ => ⟨S1x256x256, .f32⟩
  | .hbm, ⟨60, _⟩ => ⟨S256x256, .f32⟩
  | .hbm, ⟨61, _⟩ => ⟨S20000x256, .f32⟩
  | .hbm, ⟨62, _⟩ => ⟨S1x256, .f32⟩
  | .hbm, ⟨63, _⟩ => ⟨S256, .f32⟩
  | .hbm, ⟨64, _⟩ => ⟨S1x256, .f32⟩
  | .hbm, ⟨65, _⟩ => ⟨S20000x256, .f32⟩
  | .hbm, ⟨66, _⟩ => ⟨S20000x256, .f32⟩
  | .hbm, ⟨67, _⟩ => ⟨S1x256x256, .f32⟩
  | .hbm, ⟨68, _⟩ => ⟨S256x256, .f32⟩
  | .hbm, ⟨69, _⟩ => ⟨S20000x256, .f32⟩
  | .hbm, ⟨70, _⟩ => ⟨S20000x256, .f32⟩
  | .hbm, ⟨71, _⟩ => ⟨S_, .f32⟩
  | .hbm, ⟨72, _⟩ => ⟨S20000x256, .f32⟩
  | .hbm, ⟨73, _⟩ => ⟨S20000x256, .f32⟩
  | .hbm, ⟨74, _⟩ => ⟨S_, .i32⟩
  | .hbm, ⟨75, _⟩ => ⟨S320000, .i32⟩
  | .hbm, ⟨76, _⟩ => ⟨S320000, .i1⟩
  | .hbm, ⟨77, _⟩ => ⟨S_, .i32⟩
  | .hbm, ⟨78, _⟩ => ⟨S320000, .i32⟩
  | .hbm, ⟨79, _⟩ => ⟨S320000, .i32⟩
  | .hbm, ⟨80, _⟩ => ⟨S320000, .i32⟩
  | .hbm, ⟨81, _⟩ => ⟨S320000x1, .i32⟩
  | .hbm, ⟨82, _⟩ => ⟨S320000x256, .f32⟩
  | .hbm, ⟨83, _⟩ => ⟨S320000x1, .f32⟩
  | .hbm, ⟨84, _⟩ => ⟨S320000x256, .f32⟩
  | .hbm, ⟨85, _⟩ => ⟨S320000x256, .f32⟩
  | .hbm, ⟨86, _⟩ => ⟨S_, .f32⟩
  | .hbm, ⟨87, _⟩ => ⟨S20000x256, .f32⟩
  | .hbm, ⟨88, _⟩ => ⟨S320000x1, .i32⟩
  | .hbm, ⟨89, _⟩ => ⟨S20000x256, .f32⟩
  | .hbm, ⟨90, _⟩ => ⟨S1x256x256, .f32⟩
  | .hbm, ⟨91, _⟩ => ⟨S256x256, .f32⟩
  | .hbm, ⟨92, _⟩ => ⟨S20000x256, .f32⟩
  | .hbm, ⟨93, _⟩ => ⟨S1x256, .f32⟩
  | .hbm, ⟨94, _⟩ => ⟨S256, .f32⟩
  | .hbm, ⟨95, _⟩ => ⟨S1x256, .f32⟩
  | .hbm, ⟨96, _⟩ => ⟨S20000x256, .f32⟩
  | .hbm, ⟨97, _⟩ => ⟨S20000x256, .f32⟩
  | .hbm, ⟨98, _⟩ => ⟨S1x256x256, .f32⟩
  | .hbm, ⟨99, _⟩ => ⟨S256x256, .f32⟩
  | .hbm, ⟨100, _⟩ => ⟨S20000x256, .f32⟩
  | .hbm, ⟨101, _⟩ => ⟨S20000x256, .f32⟩
  | .hbm, ⟨102, _⟩ => ⟨S_, .f32⟩
  | .hbm, ⟨103, _⟩ => ⟨S20000x256, .f32⟩
  | .hbm, ⟨104, _⟩ => ⟨S20000x256, .f32⟩
  | .hbm, ⟨105, _⟩ => ⟨S20000x128, .f32⟩
  | .hbm, ⟨106, _⟩ => ⟨S1x128, .f32⟩
  | .hbm, ⟨107, _⟩ => ⟨S20000x128, .f32⟩
  | .hbm, ⟨108, _⟩ => ⟨S20000x128, .f32⟩
  | .hbm, ⟨109, _⟩ => ⟨S_, .f32⟩
  | .hbm, ⟨110, _⟩ => ⟨S20000x128, .f32⟩
  | .hbm, ⟨111, _⟩ => ⟨S20000x128, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩
abbrev main_c_1 : Ref sig .tc := ⟨.hbm, 43, rfl⟩
abbrev main_v30 : Ref sig .tc := ⟨.hbm, 44, rfl⟩
abbrev main_v31 : Ref sig .tc := ⟨.hbm, 45, rfl⟩
abbrev main_c_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call1_cst : Ref sig .tc := ⟨.hbm, 71, rfl⟩
abbrev main_call1_v0 : Ref sig .tc := ⟨.hbm, 72, rfl⟩
abbrev main_v55 : Ref sig .tc := ⟨.hbm, 73, rfl⟩
abbrev main_c_4 : Ref sig .tc := ⟨.hbm, 74, rfl⟩
abbrev main_v56 : Ref sig .tc := ⟨.hbm, 75, rfl⟩
abbrev main_v57 : Ref sig .tc := ⟨.hbm, 76, rfl⟩
abbrev main_c_5 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_6 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_call2_cst : Ref sig .tc := ⟨.hbm, 102, rfl⟩
abbrev main_call2_v0 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_call3_cst : Ref sig .tc := ⟨.hbm, 109, rfl⟩
abbrev main_call3_v0 : Ref sig .tc := ⟨.hbm, 110, rfl⟩
abbrev main_v86 : Ref sig .tc := ⟨.hbm, 111, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []
  dot_S20000x256_S256x128_S20000x128_1_0_0_1_n_n_wf : DotDims.WF S20000x256 S256x128 S20000x128 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf

class Facts : Prop extends Facts₀ where

variable [Facts]
-- ==== Proof.KernelRun.lean ====
/-
  The run of the whole program with its result named. The program is four launches of compute kernels among four
  stretches of host operations; the contents of every buffer at each of the eight boundaries is a fold from the launch
  memory: a host stretch applies its operations, a launch replaces its output array by what its grid points wrote back.
  Every weakly fair execution terminates with every buffer that outlives the launches at the last boundary's
  contents: in particular the result array, and the eight argument arrays, which nothing writes.
-/
import proofs.«159242_j62079457296459_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents
    and the arguments end as launched. -/
theorem run_value : θ_run defs (onTc (τ := τ) (main (F := F))) ⟨m, fun _ => 0, ρ⟩ (fun r => ∀ c : Dev nD,
      r.2.mem ((c.tc : Thread nD τ).loc main_v78) = W8 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v78 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Hand

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.LibDense.lean ====
/-
  The arithmetic the three kernels and the reference share, over the extended reals and over arbitrary extents.
  A dense layer entry: for a row `p` of an `[R, K]` array `x`, a `[K, N]` matrix `w`, a bias `b` of length `N` and an
  `[R, 1]` column of row weights, the entry `(p, q)` is `max (∑ k, x p k · w k q + b q) 0 · col p`. Beside it the two
  row-wise operations: an array times a column of row weights, and an array divided by a column of row normalizers.
  The lemmas read the kernels' vector operations (a matrix product into a zero accumulator, the bias viewed as one row
  and repeated over the rows, a column repeated over the lanes) at one index.
-/
import Idealize.ShloMosaic.Lib.Pipeline.Value
import Idealize.ShloMosaic.Lib.ValueIdx
import Idealize.ShloMosaic.Lib.ValueLayout
import Idealize.ShloMosaic.PureOps.Ideal.Laws
import proofs.«159242_j62079457296459_1_alg».proof.Proof.LibKeepdims

noncomputable section

namespace Cert.Dense

open Idealize.ShloMosaic Idealize.ShloMosaic.ValueIdx

/-- Entry `(p, q)` of the dense layer with relu and row weights. -/
def layerAt {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) : EReal :=
  max ((∑ k : Fin K, x (ix2 p k) * w (ix2 k q)) + b (ix1 q)) (Ideal.ofBits .f32 0x00000000#32) * col (ix2 p (0 : Fin 1))

/-- The dense layer as a whole array. -/
def layer {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) : FVec Ideal ⟨2, ![R, N]⟩ .f32 :=
  fun i => layerAt x w b col (i 0) (i 1)

/-- Every row of `x` times that row's weight. -/
def scaleRows {R N : ℕ} (x : FVec Ideal ⟨2, ![R, N]⟩ .f32) (col : FVec Ideal ⟨2, ![R, 1]⟩ .f32) : FVec Ideal ⟨2, ![R, N]⟩ .f32 :=
  fun i => x i * col (ix2 (i 0) (0 : Fin 1))

/-- Every row of `x` divided by that row's normalizer. -/
def divRows {R N : ℕ} (x : FVec Ideal ⟨2, ![R, N]⟩ .f32) (col : FVec Ideal ⟨2, ![R, 1]⟩ .f32) : FVec Ideal ⟨2, ![R, N]⟩ .f32 :=
  fun i => Ideal.div (x i) (col (ix2 (i 0) (0 : Fin 1)))

theorem layer_apply {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) :
    layer x w b col (ix2 p q) = layerAt x w b col p q := rfl

theorem scaleRows_apply {R N : ℕ} (x : FVec Ideal ⟨2, ![R, N]⟩ .f32) (col : FVec Ideal ⟨2, ![R, 1]⟩ .f32) (p : Fin R) (q : Fin N) :
    scaleRows x col (ix2 p q) = x (ix2 p q) * col (ix2 p (0 : Fin 1)) := rfl

theorem divRows_apply {R N : ℕ} (x : FVec Ideal ⟨2, ![R, N]⟩ .f32) (col : FVec Ideal ⟨2, ![R, 1]⟩ .f32) (p : Fin R) (q : Fin N) :
    divRows x col (ix2 p q) = Ideal.div (x (ix2 p q)) (col (ix2 p (0 : Fin 1))) := rfl

/-- A layer entry depends on row `p` of `x`, on `w`, on `b` and on the weight of row `p` only: two sets of operands that
    agree there give the same entry (a block of rows against the whole array). -/
theorem layerAt_congr {R R' K N : ℕ} (x : FVec Ideal ⟨2, ![R, K]⟩ .f32) (x' : FVec Ideal ⟨2, ![R', K]⟩ .f32)
    (w w' : FVec Ideal ⟨2, ![K, N]⟩ .f32) (b b' : FVec Ideal ⟨1, ![N]⟩ .f32)
    (col : FVec Ideal ⟨2, ![R, 1]⟩ .f32) (col' : FVec Ideal ⟨2, ![R', 1]⟩ .f32) (p : Fin R) (p' : Fin R') (q : Fin N)
    (hx : ∀ k : Fin K, x (ix2 p k) = x' (ix2 p' k)) (hw : w = w') (hb : b = b')
    (hc : col (ix2 p (0 : Fin 1)) = col' (ix2 p' (0 : Fin 1))) :
    layerAt x w b col p q = layerAt x' w' b' col' p' q := by
  subst hw; subst hb
  unfold layerAt
  rw [hc, Finset.sum_congr rfl fun k _ => by rw [hx k]]

/-- A matrix product into a zero accumulator, rows times columns with one contracted axis, read at `(p, q)`: the sum
    over `k` of `x p k · w k q`. The four hypotheses say which operand coordinates the dimension numbers pick. -/
theorem matmul_rows {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![K, N]⟩ .f32) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The dense kernel body's arithmetic at `(p, q)`: the product into a zero accumulator, plus the bias viewed as one row
    and repeated over the rows, clamped below at zero, times the row-weight column repeated over the lanes — a layer
    entry. -/
theorem layer_payload {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (col : FVec Ideal ⟨2, ![R, 1]⟩ .f32) (w : FVec Ideal ⟨2, ![K, N]⟩ .f32)
    (b : FVec Ideal ⟨1, ![N]⟩ .f32)
    (hc1 : (⟨2, ![K, N]⟩ : Shape).ShapeCasts ⟨2, ![K, N]⟩) (hc2 : (⟨1, ![N]⟩ : Shape).ShapeCasts ⟨2, ![1, N]⟩)
    (hb1 : (⟨2, ![1, N]⟩ : Shape).Broadcasts ⟨2, ![R, N]⟩) (hb2 : (⟨2, ![R, 1]⟩ : Shape).Broadcasts ⟨2, ![R, N]⟩)
    (p : Fin R) (q : Fin N) :
    mulf (maximumf (addf (matmul d none x (shapeCast ⟨2, ![K, N]⟩ w hc1) (constant (F := Ideal) ⟨2, ![R, N]⟩ .f32 0x00000000#32))
        (broadcastTo ⟨2, ![R, N]⟩ (shapeCast ⟨2, ![1, N]⟩ b hc2) hb1))
        (broadcast ⟨2, ![R, N]⟩ (Scalar.ofBits (F := Ideal) .f32 0x00000000#32)))
      (broadcastTo ⟨2, ![R, N]⟩ col hb2) (ix2 p q)
    = layerAt x w b col p q := by
  rw [mulf_apply, maximumf_apply, addf_apply, broadcast_apply, matmul_rows d hr hs hl0 hl1 hr0 hr1,
    broadcastTo_1b_ab_apply, shapeCast_a_1a_apply, Cert.Keepdims.broadcastTo_a1_ab_apply, shapeCast_self]
  rfl

/-- An array times a column repeated over the lanes, at `(p, q)`. -/
theorem scale_payload {R N : ℕ} (x : FVec Ideal ⟨2, ![R, N]⟩ .f32) (col : FVec Ideal ⟨2, ![R, 1]⟩ .f32)
    (hb : (⟨2, ![R, 1]⟩ : Shape).Broadcasts ⟨2, ![R, N]⟩) (p : Fin R) (q : Fin N) :
    mulf x (broadcastTo ⟨2, ![R, N]⟩ col hb) (ix2 p q) = x (ix2 p q) * col (ix2 p (0 : Fin 1)) := by
  rw [mulf_apply, Cert.Keepdims.broadcastTo_a1_ab_apply]

/-- An array divided by a column repeated over the lanes, at `(p, q)`. -/
theorem div_payload {R N : ℕ} (x : FVec Ideal ⟨2, ![R, N]⟩ .f32) (col : FVec Ideal ⟨2, ![R, 1]⟩ .f32)
    (hc : (⟨2, ![R, N]⟩ : Shape).ShapeCasts ⟨2, ![R, N]⟩)
    (hb : (⟨2, ![R, 1]⟩ : Shape).Broadcasts ⟨2, ![R, N]⟩) (p : Fin R) (q : Fin N) :
    divf (shapeCast ⟨2, ![R, N]⟩ x hc) (broadcastTo ⟨2, ![R, N]⟩ col hb) (ix2 p q)
      = Ideal.div (x (ix2 p q)) (col (ix2 p (0 : Fin 1))) := by
  rw [divf_apply, Cert.Keepdims.broadcastTo_a1_ab_apply, shapeCast_self]

end Cert.Dense

end
-- ==== Proof.LibHostDense.lean ====
/-
  Host-side forms of a dense layer's parts, read at one index, over the extended reals and over arbitrary extents:
  the host's dot_general of an [R, K] array with a [K, N] array (one contracted axis) at (p, q) is the sum over k of
  x p k · w k q; a length-N vector viewed as a [1, N] row and repeated down R rows reads, at (p, q), the vector at q;
  and a maximum with the zero constant spread over the whole array reads, at an index, max (x i) 0.
-/
import Idealize.ShloMosaic.Lib.Pipeline.Value
import Idealize.ShloMosaic.Lib.ValueIdx
import Idealize.ShloMosaic.PureOps.Ideal.Laws
import proofs.«159242_j62079457296459_1_alg».proof.Proof.LibDense

noncomputable section

namespace Cert.HostDense

open Idealize.ShloMosaic Idealize.ShloMosaic.ValueIdx

/-- The host's dot_general, rows times columns with one contracted axis, read at (p, q): the sum over k of
    x p k · w k q. The four hypotheses say which operand coordinates the dimension numbers pick. Over the extended reals
    it is the same sum as the vector unit's product into a zero accumulator. -/
theorem dotGeneral_rows {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![K, N]⟩ .f32) (p : Fin R) (q : Fin N) :
    Host.dotGeneral (F := Ideal) d none x w (ix2 p q) = ∑ k : Fin K, x (ix2 p k) * w (ix2 k q) := by
  simp only [Host.dotGeneral]
  rw [Ideal.dotGeneral_apply, ← Ideal.matmul_constant_zero_apply d none x w (ix2 p q)]
  exact Cert.Dense.matmul_rows d hr hs hl0 hl1 hr0 hr1 x w p q

variable {α : Type}

/-- A length-N vector placed along axis 1 of a [1, N] row, the row then repeated down R rows: at (p, q) the vector at q. -/
theorem rowOfVector_apply {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    broadcastInDim ⟨2, ![R, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The maximum with the zero constant spread over the whole array, at an index. -/
theorem maxZero_apply {s : Shape} (x : FVec Ideal s .f32) (h : (⟨0, ![]⟩ : Shape).BroadcastsInDim s (![] : Fin 0 → Fin s.rank)) (i : s.Idx) :
    maximumf x (broadcastInDim s ![] h (constant (F := Ideal) ⟨0, ![]⟩ .f32 0x00000000#32)) i
      = max (x i) (Ideal.ofBits .f32 0x00000000#32) := by
  rw [maximumf_apply, broadcastInDim_apply ![] h _ i ix0 (fun a => a.elim0), constant_apply]

end Cert.HostDense

end
-- ==== Proof.LibSage.lean ====
/-
  One layer of the network, over the extended reals and over arbitrary extents: for a row p of the averaged neighbour
  features `mean` and of the node's own features `x` (both [M, K]), two [K, N] matrices and a bias, entry (p, q) of the
  layer is  ∑ k, mean p k · wl k q  +  ∑ k, x p k · wr k q  +  bias q.  The compute units add the two products first and
  the bias last; the host adds the bias to the first product and the second product last. Addition of extended reals
  is commutative and associative, so the two are one number, with no finiteness needed.
  The lemmas read both spellings at one index (p, q).
-/
import Idealize.ShloMosaic.Lib.Pipeline.Value
import Idealize.ShloMosaic.Lib.ValueIdx
import Idealize.ShloMosaic.Lib.ValueLayout
import Idealize.ShloMosaic.PureOps.Ideal.Laws
import proofs.«159242_j62079457296459_1_alg».proof.Proof.LibDense
import proofs.«159242_j62079457296459_1_alg».proof.Proof.LibHostDense

noncomputable section

namespace Cert.Sage

open Idealize.ShloMosaic Idealize.ShloMosaic.ValueIdx

/-- What the dimension numbers "rows of an [R, K] array times columns of a [K, N] array, one contracted axis" say,
    coordinate by coordinate: the contraction index has one axis of extent K; the left operand is read at
    (row, k), the right one at (k, column). -/
structure RowsByCols {R K N : ℕ} (d : DotDims ⟨2, ![R, K]⟩ ⟨2, ![K, N]⟩ ⟨2, ![R, N]⟩) : Prop where
  rank : d.contr.rank = 1
  size : d.contr.size ⟨0, by omega⟩ = K
  lhs0 : ∀ (j : (⟨2, ![R, N]⟩ : Shape).Idx) (q : d.contr.Idx), (d.lhsIdx j q 0).val = (j 0).val
  lhs1 : ∀ (j : (⟨2, ![R, N]⟩ : Shape).Idx) (q : d.contr.Idx), (d.lhsIdx j q 1).val = (q ⟨0, by omega⟩).val
  rhs0 : ∀ (j : (⟨2, ![R, N]⟩ : Shape).Idx) (q : d.contr.Idx), (d.rhsIdx j q 0).val = (q ⟨0, by omega⟩).val
  rhs1 : ∀ (j : (⟨2, ![R, N]⟩ : Shape).Idx) (q : d.contr.Idx), (d.rhsIdx j q 1).val = (j 1).val

/-- Entry (p, q) of the layer; the bias is held as a [1, N] row. -/
def entry {M K N : ℕ} (mean x : FVec Ideal ⟨2, ![M, K]⟩ .f32) (wl wr : FVec Ideal ⟨2, ![K, N]⟩ .f32)
    (brow : FVec Ideal ⟨2, ![1, N]⟩ .f32) (p : Fin M) (q : Fin N) : EReal :=
  (∑ k : Fin K, mean (ix2 p k) * wl (ix2 k q)) + (∑ k : Fin K, x (ix2 p k) * wr (ix2 k q)) + brow (ix2 (0 : Fin 1) q)

/-- The layer as a whole array. -/
def conv {M K N : ℕ} (mean x : FVec Ideal ⟨2, ![M, K]⟩ .f32) (wl wr : FVec Ideal ⟨2, ![K, N]⟩ .f32)
    (brow : FVec Ideal ⟨2, ![1, N]⟩ .f32) : FVec Ideal ⟨2, ![M, N]⟩ .f32 :=
  fun i => entry mean x wl wr brow (i 0) (i 1)

/-- The layer followed by the clamp below at zero. -/
def convRelu {M K N : ℕ} (mean x : FVec Ideal ⟨2, ![M, K]⟩ .f32) (wl wr : FVec Ideal ⟨2, ![K, N]⟩ .f32)
    (brow : FVec Ideal ⟨2, ![1, N]⟩ .f32) : FVec Ideal ⟨2, ![M, N]⟩ .f32 :=
  fun i => max (entry mean x wl wr brow (i 0) (i 1)) (Ideal.ofBits .f32 0x00000000#32)

theorem conv_apply {M K N : ℕ} (mean x : FVec Ideal ⟨2, ![M, K]⟩ .f32) (wl wr : FVec Ideal ⟨2, ![K, N]⟩ .f32)
    (brow : FVec Ideal ⟨2, ![1, N]⟩ .f32) (p : Fin M) (q : Fin N) :
    conv mean x wl wr brow (ix2 p q) = entry mean x wl wr brow p q := rfl

theorem convRelu_apply {M K N : ℕ} (mean x : FVec Ideal ⟨2, ![M, K]⟩ .f32) (wl wr : FVec Ideal ⟨2, ![K, N]⟩ .f32)
    (brow : FVec Ideal ⟨2, ![1, N]⟩ .f32) (p : Fin M) (q : Fin N) :
    convRelu mean x wl wr brow (ix2 p q) = max (entry mean x wl wr brow p q) (Ideal.ofBits .f32 0x00000000#32) := rfl

/-- An entry depends on row p of `mean` and of `x` only: a block of rows gives the entry the whole arrays give at
    the row the block's row p' sits at. -/
theorem entry_congr {M M' K N : ℕ} (mean x : FVec Ideal ⟨2, ![M, K]⟩ .f32) (mean' x' : FVec Ideal ⟨2, ![M', K]⟩ .f32)
    (wl wr : FVec Ideal ⟨2, ![K, N]⟩ .f32) (brow : FVec Ideal ⟨2, ![1, N]⟩ .f32) (p : Fin M) (p' : Fin M') (q : Fin N)
    (hm : ∀ k : Fin K, mean (ix2 p k) = mean' (ix2 p' k)) (hx : ∀ k : Fin K, x (ix2 p k) = x' (ix2 p' k)) :
    entry mean x wl wr brow p q = entry mean' x' wl wr brow p' q := by
  unfold entry
  have e1 : (∑ k : Fin K, mean (ix2 p k) * wl (ix2 k q)) = ∑ k : Fin K, mean' (ix2 p' k) * wl (ix2 k q) :=
    Finset.sum_congr rfl fun k _ => by rw [hm k]
  have e2 : (∑ k : Fin K, x (ix2 p k) * wr (ix2 k q)) = ∑ k : Fin K, x' (ix2 p' k) * wr (ix2 k q) :=
    Finset.sum_congr rfl fun k _ => by rw [hx k]
  rw [e1, e2]

/-- A matrix product into a zero accumulator read at (p, q), whatever formats the operands are held in (over the
    extended reals a change of format changes nothing). -/
theorem matmul_at {R K N : ℕ} {φ₁ φ₂ : FTy} (d : DotDims ⟨2, ![R, K]⟩ ⟨2, ![K, N]⟩ ⟨2, ![R, N]⟩) (hd : RowsByCols d)
    (a : FVec Ideal ⟨2, ![R, K]⟩ φ₁) (w : FVec Ideal ⟨2, ![K, N]⟩ φ₂) (p : Fin R) (q : Fin N) :
    matmul d none a w (constant (F := Ideal) ⟨2, ![R, N]⟩ .f32 0x00000000#32) (ix2 p q) = ∑ k : Fin K, a (ix2 p k) * w (ix2 k q) :=
  Cert.Dense.matmul_rows d hd.rank hd.size hd.lhs0 hd.lhs1 hd.rhs0 hd.rhs1 a w p q

/-- The body's arithmetic at (p, q) of a block: the two products into zero accumulators added, then the bias row
    repeated over the rows added. -/
theorem body_entry {R K N : ℕ} {φ₁ φ₂ : FTy} (d : DotDims ⟨2, ![R, K]⟩ ⟨2, ![K, N]⟩ ⟨2, ![R, N]⟩) (hd : RowsByCols d)
    (a c : FVec Ideal ⟨2, ![R, K]⟩ φ₁) (wl wr : FVec Ideal ⟨2, ![K, N]⟩ φ₂) (brow : FVec Ideal ⟨2, ![1, N]⟩ .f32)
    (hb : (⟨2, ![1, N]⟩ : Shape).Broadcasts ⟨2, ![R, N]⟩) (p : Fin R) (q : Fin N) :
    addf (addf (matmul d none a wl (constant (F := Ideal) ⟨2, ![R, N]⟩ .f32 0x00000000#32))
        (matmul d none c wr (constant (F := Ideal) ⟨2, ![R, N]⟩ .f32 0x00000000#32)))
      (broadcastTo ⟨2, ![R, N]⟩ brow hb) (ix2 p q)
    = entry a c wl wr brow p q := by
  rw [addf_apply, addf_apply, matmul_at d hd, matmul_at d hd, broadcastTo_1b_ab_apply]
  rfl

/-- The same followed by the maximum with the zero scalar spread over the block. -/
theorem body_entry_relu {R K N : ℕ} {φ₁ φ₂ : FTy} (d : DotDims ⟨2, ![R, K]⟩ ⟨2, ![K, N]⟩ ⟨2, ![R, N]⟩) (hd : RowsByCols d)
    (a c : FVec Ideal ⟨2, ![R, K]⟩ φ₁) (wl wr : FVec Ideal ⟨2, ![K, N]⟩ φ₂) (brow : FVec Ideal ⟨2, ![1, N]⟩ .f32)
    (hb : (⟨2, ![1, N]⟩ : Shape).Broadcasts ⟨2, ![R, N]⟩) (p : Fin R) (q : Fin N) :
    maximumf (addf (addf (matmul d none a wl (constant (F := Ideal) ⟨2, ![R, N]⟩ .f32 0x00000000#32))
        (matmul d none c wr (constant (F := Ideal) ⟨2, ![R, N]⟩ .f32 0x00000000#32)))
      (broadcastTo ⟨2, ![R, N]⟩ brow hb)) (broadcast ⟨2, ![R, N]⟩ (Scalar.ofBits (F := Ideal) .f32 0x00000000#32)) (ix2 p q)
    = max (entry a c wl wr brow p q) (Ideal.ofBits .f32 0x00000000#32) := by
  rw [maximumf_apply, broadcast_apply, body_entry d hd]
  rfl

/-- The host's spelling of the layer — first product plus the bias (placed along axis 1 of a row and repeated down
    the rows), then plus the second product — is the layer with the bias vector viewed as a [1, N] row:
    (A + b) + B = (A + B) + b on the extended reals. -/
theorem host_conv {M K N : ℕ} (d : DotDims ⟨2, ![M, K]⟩ ⟨2, ![K, N]⟩ ⟨2, ![M, N]⟩) (hd : RowsByCols d)
    (mean x : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (addf (Host.dotGeneral (F := Ideal) d none mean wl)
        (broadcastInDim ⟨2, ![M, N]⟩ ![0, 1] h2 (broadcastInDim ⟨2, ![1, N]⟩ ![1] h1 b)))
      (Host.dotGeneral (F := Ideal) d none x wr)
    = conv mean x wl wr (shapeCast ⟨2, ![1, N]⟩ b hc) := by
  funext i
  obtain ⟨p, q, rfl⟩ : ∃ (p : Fin M) (q : Fin N), i = ix2 p q := ⟨i 0, i 1, eq_ix2 i⟩
  rw [addf_apply, addf_apply,
    Cert.HostDense.dotGeneral_rows d hd.rank hd.size hd.lhs0 hd.lhs1 hd.rhs0 hd.rhs1,
    Cert.HostDense.dotGeneral_rows d hd.rank hd.size hd.lhs0 hd.lhs1 hd.rhs0 hd.rhs1,
    Cert.HostDense.rowOfVector_apply, conv_apply]
  unfold entry
  rw [shapeCast_a_1a_apply]
  exact add_right_comm _ _ _

/-- The host's layer followed by its maximum with the zero constant spread over the array. -/
theorem host_convRelu {M K N : ℕ} (d : DotDims ⟨2, ![M, K]⟩ ⟨2, ![K, N]⟩ ⟨2, ![M, N]⟩) (hd : RowsByCols d)
    (mean x : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩)
    (h0 : (⟨0, ![]⟩ : Shape).BroadcastsInDim ⟨2, ![M, N]⟩ (![] : Fin 0 → Fin 2)) :
    maximumf (addf (addf (Host.dotGeneral (F := Ideal) d none mean wl)
        (broadcastInDim ⟨2, ![M, N]⟩ ![0, 1] h2 (broadcastInDim ⟨2, ![1, N]⟩ ![1] h1 b)))
      (Host.dotGeneral (F := Ideal) d none x wr))
      (broadcastInDim ⟨2, ![M, N]⟩ ![] h0 (constant (F := Ideal) ⟨0, ![]⟩ .f32 0x00000000#32))
    = convRelu mean x wl wr (shapeCast ⟨2, ![1, N]⟩ b hc) := by
  funext i
  rw [Cert.HostDense.maxZero_apply, host_conv d hd mean x wl wr b h1 h2 hc]
  rfl

end Cert.Sage

end
-- ==== Proof.OutLayer.lean ====
/-
  The output layer of the network over the extended reals, for any number of rows: entry (p, q) is row p of the
  features against column q of the 256 x 128 matrix, plus the bias at q, clamped below at zero.
-/
import Idealize.ShloMosaic.Lib.ValueIdx
import Idealize.ShloMosaic.PureOps.Ideal.Laws

noncomputable section

namespace Cert.OutLayer

open Idealize.ShloMosaic Idealize.ShloMosaic.ValueIdx

/-- Entry (p, q) before the clamp. -/
def outEntry {M : ℕ} (h : FVec Ideal ⟨2, ![M, 256]⟩ .f32) (w : FVec Ideal ⟨2, ![256, 128]⟩ .f32)
    (b : FVec Ideal ⟨1, ![128]⟩ .f32) (p : Fin M) (q : Fin 128) : EReal :=
  (∑ k : Fin 256, h (ix2 p k) * w (ix2 k q)) + b (ix1 q)

/-- The whole layer. -/
def outRelu {M : ℕ} (h : FVec Ideal ⟨2, ![M, 256]⟩ .f32) (w : FVec Ideal ⟨2, ![256, 128]⟩ .f32)
    (b : FVec Ideal ⟨1, ![128]⟩ .f32) : FVec Ideal ⟨2, ![M, 128]⟩ .f32 :=
  fun i => max (outEntry h w b (i 0) (i 1)) (Ideal.ofBits .f32 0x00000000#32)

theorem outRelu_apply {M : ℕ} (h : FVec Ideal ⟨2, ![M, 256]⟩ .f32) (w : FVec Ideal ⟨2, ![256, 128]⟩ .f32)
    (b : FVec Ideal ⟨1, ![128]⟩ .f32) (i : (⟨2, ![M, 128]⟩ : Shape).Idx) :
    outRelu h w b i = max (outEntry h w b (i 0) (i 1)) (Ideal.ofBits .f32 0x00000000#32) := rfl

end Cert.OutLayer

end
-- ==== Proof.Spec.lean ====
/-
  The network both programs compute, as one function of the eight argument arrays over the extended reals.
  An edge e carries a source node, a target node and a weight. One layer aggregates, for every node, the weighted
  features of the sources of its incoming edges (a gather of rows by source, a product by the edge weight, a sum of
  rows by target), and maps node i to
      max ( agg_i W_rel + h_i W_root + b , 0 ).
  Three such layers, each with its own slice of the stacked parameters, are followed by
      max ( h_i W_out + b_out , 0 ).
  The gather and the sum by target are the host's own operations, applied here once as ONE function `agg`: both
  programs apply the same, so nothing in the certificate looks inside it. The source indices are read the way the host
  reads them: a negative index counts from the end.
-/
import proofs.«159242_j62079457296459_1_alg».proof.ReferenceIdeal
import proofs.«159242_j62079457296459_1_alg».proof.Proof.Gen.ReferenceIdeal
import proofs.«159242_j62079457296459_1_alg».proof.Proof.LibSage
import proofs.«159242_j62079457296459_1_alg».proof.Proof.OutLayer

noncomputable section

namespace Cert.ReferenceIdeal.Spec

open Cert.ReferenceIdeal Idealize.ShloMosaic Idealize.ShloMosaic.ValueIdx
open Facts₀ Facts

/-- The edges' sources: row 0 of the [2, E] edge array. -/
def src (ei : IVec S2x320000 32) : IVec S320000 32 :=
  shapeCast _ (extractStridedSlice S1x320000 ![0, 0] ei slices_S2x320000_S1x320000_0_0) shapeCasts_S1x320000_S320000

/-- The edges' targets: row 1 of the edge array. -/
def dst (ei : IVec S2x320000 32) : IVec S320000 32 :=
  shapeCast _ (extractStridedSlice S1x320000 ![1, 0] ei slices_S2x320000_S1x320000_1_0) shapeCasts_S1x320000_S320000

/-- The aggregation: row e of the gathered features is row src e of `h` (a negative source wrapped once) times the
    weight of e; the rows are summed into a zero array by target. -/
def agg (h : FVec Ideal S20000x256 .f32) (s d : IVec S320000 32) (ea : FVec Ideal S320000 .f32) : FVec Ideal S20000x256 .f32 :=
  Host.scatterAdd (F := Ideal) scatter_S20000x256_S320000x1_S320000x256_1_0_0_1
    (broadcastInDim S20000x256 ![] bcast_S_S20000x256 (constant (F := Ideal) S_ .f32 0x00000000#32))
    (broadcastInDim S320000x1 ![0] bcast_S320000_S320000x1_0 d)
    (mulf (Host.gather gather_S20000x256_S320000x1_S320000x256_1_0_n_n_0_1_1256 h
        (broadcastInDim S320000x1 ![0] bcast_S320000_S320000x1_0
          (select (cmpi .slt s (broadcastInDim S320000 ![] bcast_S_S320000 (constantI S_ 32 0#32)))
            (addi s (broadcastInDim S320000 ![] bcast_S_S320000 (constantI S_ 32 20000#32))) s)))
      (broadcastInDim S320000x256 ![0, 1] bcast_S320000x1_S320000x256_0_1 (broadcastInDim S320000x1 ![0] bcast_S320000_S320000x1_0 ea)))

/-- One layer from its own parameters: the two matrices and the bias vector. -/
def layer (h : FVec Ideal S20000x256 .f32) (s d : IVec S320000 32) (ea : FVec Ideal S320000 .f32)
    (wl : FVec Ideal S256x256 .f32) (b : FVec Ideal S256 .f32) (wr : FVec Ideal S256x256 .f32) : FVec Ideal S20000x256 .f32 :=
  Cert.Sage.convRelu (agg h s d ea) h wl wr (shapeCast S1x256 b (by decide))

/-- Slice l of a stack of three matrices. -/
def mat0 (w : FVec Ideal S3x256x256 .f32) : FVec Ideal S256x256 .f32 :=
  shapeCast _ (extractStridedSlice S1x256x256 ![0, 0, 0] w slices_S3x256x256_S1x256x256_0_0_0) shapeCasts_S1x256x256_S256x256
def mat1 (w : FVec Ideal S3x256x256 .f32) : FVec Ideal S256x256 .f32 :=
  shapeCast _ (extractStridedSlice S1x256x256 ![1, 0, 0] w slices_S3x256x256_S1x256x256_1_0_0) shapeCasts_S1x256x256_S256x256
def mat2 (w : FVec Ideal S3x256x256 .f32) : FVec Ideal S256x256 .f32 :=
  shapeCast _ (extractStridedSlice S1x256x256 ![2, 0, 0] w slices_S3x256x256_S1x256x256_2_0_0) shapeCasts_S1x256x256_S256x256

/-- Slice l of a stack of three bias vectors. -/
def vec0 (b : FVec Ideal S3x256 .f32) : FVec Ideal S256 .f32 :=
  shapeCast _ (extractStridedSlice S1x256 ![0, 0] b slices_S3x256_S1x256_0_0) shapeCasts_S1x256_S256
def vec1 (b : FVec Ideal S3x256 .f32) : FVec Ideal S256 .f32 :=
  shapeCast _ (extractStridedSlice S1x256 ![1, 0] b slices_S3x256_S1x256_1_0) shapeCasts_S1x256_S256
def vec2 (b : FVec Ideal S3x256 .f32) : FVec Ideal S256 .f32 :=
  shapeCast _ (extractStridedSlice S1x256 ![2, 0] b slices_S3x256_S1x256_2_0) shapeCasts_S1x256_S256

/-- The node features after the first, second and third layer. -/
def h1 (x : FVec Ideal S20000x256 .f32) (ei : IVec S2x320000 32) (ea : FVec Ideal S320000 .f32)
    (w3 : FVec Ideal S3x256x256 .f32) (b4 : FVec Ideal S3x256 .f32) (w5 : FVec Ideal S3x256x256 .f32) : FVec Ideal S20000x256 .f32 :=
  layer x (src ei) (dst ei) ea (mat0 w3) (vec0 b4) (mat0 w5)
def h2 (x : FVec Ideal S20000x256 .f32) (ei : IVec S2x320000 32) (ea : FVec Ideal S320000 .f32)
    (w3 : FVec Ideal S3x256x256 .f32) (b4 : FVec Ideal S3x256 .f32) (w5 : FVec Ideal S3x256x256 .f32) : FVec Ideal S20000x256 .f32 :=
  layer (h1 x ei ea w3 b4 w5) (src ei) (dst ei) ea (mat1 w3) (vec1 b4) (mat1 w5)
def h3 (x : FVec Ideal S20000x256 .f32) (ei : IVec S2x320000 32) (ea : FVec Ideal S320000 .f32)
    (w3 : FVec Ideal S3x256x256 .f32) (b4 : FVec Ideal S3x256 .f32) (w5 : FVec Ideal S3x256x256 .f32) : FVec Ideal S20000x256 .f32 :=
  layer (h2 x ei ea w3 b4 w5) (src ei) (dst ei) ea (mat2 w3) (vec2 b4) (mat2 w5)

/-- The network's result. -/
def net (x : FVec Ideal S20000x256 .f32) (ei : IVec S2x320000 32) (ea : FVec Ideal S320000 .f32)
    (w3 : FVec Ideal S3x256x256 .f32) (b4 : FVec Ideal S3x256 .f32) (w5 : FVec Ideal S3x256x256 .f32)
    (w6 : FVec Ideal S256x128 .f32) (b7 : FVec Ideal S128 .f32) : FVec Ideal S20000x128 .f32 :=
  Cert.OutLayer.outRelu (h3 x ei ea w3 b4 w5) w6 b7

end Cert.ReferenceIdeal.Spec

end
-- ==== Proof.Keep.lean ====
/-
  Buffers the host operations between the launches do not write keep their contents across a stretch: each stretch
  writes only its own results, so an argument array, and the source and target vectors computed before the first
  launch, read after a stretch what they read before it.
-/
import proofs.«159242_j62079457296459_1_alg».proof.Proof.Gen.KernelIdeal.Frame

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- No operation of the stretch writes the buffer: every operation's result is another buffer. -/
macro "host_keep" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (X : Valuation τ sig (Elt F))

/-! ## The stretch before the first launch -/
theorem keep0_arg2 : StableHlo.after (hostOps0 (F := F)) X (Proc.devRef .tc main_arg2) = X (Proc.devRef .tc main_arg2) := by host_keep
theorem keep0_arg3 : StableHlo.after (hostOps0 (F := F)) X (Proc.devRef .tc main_arg3) = X (Proc.devRef .tc main_arg3) := by host_keep
theorem keep0_arg4 : StableHlo.after (hostOps0 (F := F)) X (Proc.devRef .tc main_arg4) = X (Proc.devRef .tc main_arg4) := by host_keep
theorem keep0_arg5 : StableHlo.after (hostOps0 (F := F)) X (Proc.devRef .tc main_arg5) = X (Proc.devRef .tc main_arg5) := by host_keep
theorem keep0_arg6 : StableHlo.after (hostOps0 (F := F)) X (Proc.devRef .tc main_arg6) = X (Proc.devRef .tc main_arg6) := by host_keep
theorem keep0_arg7 : StableHlo.after (hostOps0 (F := F)) X (Proc.devRef .tc main_arg7) = X (Proc.devRef .tc main_arg7) := by host_keep

/-! ## The stretch between the first and the second launch -/
theorem keep1_v1 : StableHlo.after (hostOps1 (F := F)) X (Proc.devRef .tc main_v1) = X (Proc.devRef .tc main_v1) := by host_keep
theorem keep1_v3 : StableHlo.after (hostOps1 (F := F)) X (Proc.devRef .tc main_v3) = X (Proc.devRef .tc main_v3) := by host_keep
theorem keep1_arg2 : StableHlo.after (hostOps1 (F := F)) X (Proc.devRef .tc main_arg2) = X (Proc.devRef .tc main_arg2) := by host_keep
theorem keep1_arg3 : StableHlo.after (hostOps1 (F := F)) X (Proc.devRef .tc main_arg3) = X (Proc.devRef .tc main_arg3) := by host_keep
theorem keep1_arg4 : StableHlo.after (hostOps1 (F := F)) X (Proc.devRef .tc main_arg4) = X (Proc.devRef .tc main_arg4) := by host_keep
theorem keep1_arg5 : StableHlo.after (hostOps1 (F := F)) X (Proc.devRef .tc main_arg5) = X (Proc.devRef .tc main_arg5) := by host_keep
theorem keep1_arg6 : StableHlo.after (hostOps1 (F := F)) X (Proc.devRef .tc main_arg6) = X (Proc.devRef .tc main_arg6) := by host_keep
theorem keep1_arg7 : StableHlo.after (hostOps1 (F := F)) X (Proc.devRef .tc main_arg7) = X (Proc.devRef .tc main_arg7) := by host_keep

/-! ## The stretch between the second and the third launch, and the one before the last -/
theorem keep2_arg6 : StableHlo.after (hostOps2 (F := F)) X (Proc.devRef .tc main_arg6) = X (Proc.devRef .tc main_arg6) := by host_keep
theorem keep2_arg7 : StableHlo.after (hostOps2 (F := F)) X (Proc.devRef .tc main_arg7) = X (Proc.devRef .tc main_arg7) := by host_keep
theorem keep3_arg7 : StableHlo.after (hostOps3 (F := F)) X (Proc.devRef .tc main_arg7) = X (Proc.devRef .tc main_arg7) := by host_keep

end Cert.KernelIdeal.Hand

end
-- ==== Proof.Stretch0.lean ====
/-
  The host operations before the first launch, read at the buffers the launch's windows stage, from any contents X of
  the buffers before the stretch: the aggregated features are the aggregation of the input features along the edges; the
  other four operands are the input features and the first slices of the stacked parameters. Rounding to the
  half-width format is the identity on the extended reals.
-/
import proofs.«159242_j62079457296459_1_alg».proof.Proof.Gen.KernelIdeal.Frame
import proofs.«159242_j62079457296459_1_alg».proof.Proof.Spec

set_option maxRecDepth 16384

noncomputable section

namespace Cert.KernelIdeal.Hand

open Cert.KernelIdeal Cert.KernelIdeal.Gen Idealize.ShloMosaic Idealize.ShloMosaic.TcCoe Idealize.SL.Sem
open Cert.ReferenceIdeal (Spec.src Spec.dst Spec.agg Spec.mat0 Spec.mat1 Spec.mat2 Spec.vec0 Spec.vec1 Spec.vec2)

variable (X : Valuation τ sig (Elt Ideal))

/-- The sources and the targets of the edges. -/
theorem s0_src : StableHlo.after (hostOps0 (F := Ideal)) X (Proc.devRef .tc main_v1) = Spec.src (X (Proc.devRef .tc main_arg1)) := by
  after_results_simp
  rfl
theorem s0_dst : StableHlo.after (hostOps0 (F := Ideal)) X (Proc.devRef .tc main_v3) = Spec.dst (X (Proc.devRef .tc main_arg1)) := by
  after_results_simp
  rfl

set_option maxHeartbeats 2000000 in
/-- The aggregated features the first launch reads. -/
theorem s0_agg : StableHlo.after (hostOps0 (F := Ideal)) X (Proc.devRef .tc main_v23)
    = truncf .bf16 (Spec.agg (X (Proc.devRef .tc main_arg0)) (Spec.src (X (Proc.devRef .tc main_arg1))) (Spec.dst (X (Proc.devRef .tc main_arg1)))
        (X (Proc.devRef .tc main_arg2))) bitsLt_bf16_f32 := by
  after_results_simp
  rfl

/-- The node features the first launch reads are the input features. -/
theorem s0_h : StableHlo.after (hostOps0 (F := Ideal)) X (Proc.devRef .tc main_v24) = (truncf (F := Ideal) .bf16 (X (Proc.devRef .tc main_arg0) : FVec Ideal S20000x256 .f32) bitsLt_bf16_f32 : FVec Ideal S20000x256 .bf16) := by
  after_results_simp

/-- The two matrices and the bias of the first layer. -/
theorem s0_wl : StableHlo.after (hostOps0 (F := Ideal)) X (Proc.devRef .tc main_v25) = truncf .bf16 (Spec.mat0 (X (Proc.devRef .tc main_arg3))) bitsLt_bf16_f32 := by
  after_results_simp
  rfl
theorem s0_wr : StableHlo.after (hostOps0 (F := Ideal)) X (Proc.devRef .tc main_v26) = truncf .bf16 (Spec.mat0 (X (Proc.devRef .tc main_arg5))) bitsLt_bf16_f32 := by
  after_results_simp
  rfl
theorem s0_b : StableHlo.after (hostOps0 (F := Ideal)) X (Proc.devRef .tc main_v20) = Spec.vec0 (X (Proc.devRef .tc main_arg4)) := by
  after_results_simp
  rfl

end Cert.KernelIdeal.Hand

end
-- ==== Proof.Stretch1.lean ====
/-
  The host operations between launch 0 and launch 1, read at the buffers launch 1's windows stage, from any
  contents X of the buffers before the stretch: the aggregated features are the aggregation, along the edges, of the
  previous launch's output; the node features are that output; the matrices and the bias are slice 1 of the stacked
  parameters. Rounding to the half-width format is the identity on the extended reals.
-/
import proofs.«159242_j62079457296459_1_alg».proof.Proof.Gen.KernelIdeal.Frame
import proofs.«159242_j62079457296459_1_alg».proof.Proof.Spec

set_option maxRecDepth 16384

noncomputable section

namespace Cert.KernelIdeal.Hand

open Cert.KernelIdeal Cert.KernelIdeal.Gen Idealize.ShloMosaic Idealize.ShloMosaic.TcCoe Idealize.SL.Sem
open Cert.ReferenceIdeal (Spec.src Spec.dst Spec.agg Spec.mat0 Spec.mat1 Spec.mat2 Spec.vec0 Spec.vec1 Spec.vec2)

variable (X : Valuation τ sig (Elt Ideal))

set_option maxHeartbeats 2000000 in
/-- The aggregated features the launch reads. -/
theorem s1_agg : StableHlo.after (hostOps1 (F := Ideal)) X (Proc.devRef .tc main_v47)
    = truncf .bf16 (Spec.agg (X (Proc.devRef .tc main_v27)) (X (Proc.devRef .tc main_v1)) (X (Proc.devRef .tc main_v3))
        (X (Proc.devRef .tc main_arg2))) bitsLt_bf16_f32 := by
  after_results_simp
  rfl

/-- The node features the launch reads are the previous launch's output. -/
theorem s1_h : StableHlo.after (hostOps1 (F := Ideal)) X (Proc.devRef .tc main_v48) = (truncf (F := Ideal) .bf16 (X (Proc.devRef .tc main_v27) : FVec Ideal S20000x256 .f32) bitsLt_bf16_f32 : FVec Ideal S20000x256 .bf16) := by
  after_results_simp

/-- The two matrices and the bias of the layer. -/
theorem s1_wl : StableHlo.after (hostOps1 (F := Ideal)) X (Proc.devRef .tc main_v49) = truncf .bf16 (Spec.mat1 (X (Proc.devRef .tc main_arg3))) bitsLt_bf16_f32 := by
  after_results_simp
  rfl
theorem s1_wr : StableHlo.after (hostOps1 (F := Ideal)) X (Proc.devRef .tc main_v50) = truncf .bf16 (Spec.mat1 (X (Proc.devRef .tc main_arg5))) bitsLt_bf16_f32 := by
  after_results_simp
  rfl
theorem s1_b : StableHlo.after (hostOps1 (F := Ideal)) X (Proc.devRef .tc main_v44) = Spec.vec1 (X (Proc.devRef .tc main_arg4)) := by
  after_results_simp
  rfl

end Cert.KernelIdeal.Hand

end
-- ==== Proof.Stretch2.lean ====
/-
  The host operations between launch 1 and launch 2, read at the buffers launch 2's windows stage, from any
  contents X of the buffers before the stretch: the aggregated features are the aggregation, along the edges, of the
  previous launch's output; the node features are that output; the matrices and the bias are slice 2 of the stacked
  parameters. Rounding to the half-width format is the identity on the extended reals.
-/
import proofs.«159242_j62079457296459_1_alg».proof.Proof.Gen.KernelIdeal.Frame
import proofs.«159242_j62079457296459_1_alg».proof.Proof.Spec

set_option maxRecDepth 16384

noncomputable section

namespace Cert.KernelIdeal.Hand

open Cert.KernelIdeal Cert.KernelIdeal.Gen Idealize.ShloMosaic Idealize.ShloMosaic.TcCoe Idealize.SL.Sem
open Cert.ReferenceIdeal (Spec.src Spec.dst Spec.agg Spec.mat0 Spec.mat1 Spec.mat2 Spec.vec0 Spec.vec1 Spec.vec2)

variable (X : Valuation τ sig (Elt Ideal))

set_option maxHeartbeats 2000000 in
/-- The aggregated features the launch reads. -/
theorem s2_agg : StableHlo.after (hostOps2 (F := Ideal)) X (Proc.devRef .tc main_v71)
    = truncf .bf16 (Spec.agg (X (Proc.devRef .tc main_v51)) (X (Proc.devRef .tc main_v1)) (X (Proc.devRef .tc main_v3))
        (X (Proc.devRef .tc main_arg2))) bitsLt_bf16_f32 := by
  after_results_simp
  rfl

/-- The node features the launch reads are the previous launch's output. -/
theorem s2_h : StableHlo.after (hostOps2 (F := Ideal)) X (Proc.devRef .tc main_v72) = (truncf (F := Ideal) .bf16 (X (Proc.devRef .tc main_v51) : FVec Ideal S20000x256 .f32) bitsLt_bf16_f32 : FVec Ideal S20000x256 .bf16) := by
  after_results_simp

/-- The two matrices and the bias of the layer. -/
theorem s2_wl : StableHlo.after (hostOps2 (F := Ideal)) X (Proc.devRef .tc main_v73) = truncf .bf16 (Spec.mat2 (X (Proc.devRef .tc main_arg3))) bitsLt_bf16_f32 := by
  after_results_simp
  rfl
theorem s2_wr : StableHlo.after (hostOps2 (F := Ideal)) X (Proc.devRef .tc main_v74) = truncf .bf16 (Spec.mat2 (X (Proc.devRef .tc main_arg5))) bitsLt_bf16_f32 := by
  after_results_simp
  rfl
theorem s2_b : StableHlo.after (hostOps2 (F := Ideal)) X (Proc.devRef .tc main_v68) = Spec.vec2 (X (Proc.devRef .tc main_arg4)) := by
  after_results_simp
  rfl

end Cert.KernelIdeal.Hand

end
-- ==== Proof.Stretch3.lean ====
/-
  The two host operations before the last launch, from any contents X of the buffers before them: the features the
  output kernel reads are the third launch's output, the matrix is the output matrix; both only change format, which is
  the identity on the extended reals.
-/
import proofs.«159242_j62079457296459_1_alg».proof.Proof.Gen.KernelIdeal.Frame
import proofs.«159242_j62079457296459_1_alg».proof.Proof.Spec

set_option maxRecDepth 16384

noncomputable section

namespace Cert.KernelIdeal.Hand

open Cert.KernelIdeal Cert.KernelIdeal.Gen Idealize.ShloMosaic Idealize.ShloMosaic.TcCoe Idealize.SL.Sem
open Cert.ReferenceIdeal (Spec.src Spec.dst Spec.agg Spec.mat0 Spec.mat1 Spec.mat2 Spec.vec0 Spec.vec1 Spec.vec2)

variable (X : Valuation τ sig (Elt Ideal))

theorem s3_h : StableHlo.after (hostOps3 (F := Ideal)) X (Proc.devRef .tc main_v76) = (truncf (F := Ideal) .bf16 (X (Proc.devRef .tc main_v75) : FVec Ideal S20000x256 .f32) bitsLt_bf16_f32 : FVec Ideal S20000x256 .bf16) := by
  after_results_simp
theorem s3_w : StableHlo.after (hostOps3 (F := Ideal)) X (Proc.devRef .tc main_v77) = (truncf (F := Ideal) .bf16 (X (Proc.devRef .tc main_arg6) : FVec Ideal S256x128 .f32) bitsLt_bf16_f32 : FVec Ideal S256x128 .bf16) := by
  after_results_simp

end Cert.KernelIdeal.Hand

end
-- ==== Proof.Body.lean ====
/-
  The arithmetic of the four compute kernels read at one entry, over the extended reals.
  A graph-convolution kernel holds a block of 2000 rows of the aggregated neighbour features and of the node features,
  two 256 x 256 matrices and a bias; entry (p, q) of what it stores is
      max ( sum_k agg p k * wrel k q  +  sum_k h p k * wroot k q  +  bias q ,  0 ).
  The output kernel holds a block of 2000 rows of node features, a 256 x 128 matrix and a bias; entry (p, q) is
      max ( sum_k h p k * wout k q + bias q , 0 ).
  A change of float format is the identity on the extended reals, so the half-width operands are read as they are.
-/
import proofs.«159242_j62079457296459_1_alg».proof.Proof.Gen.KernelIdeal.Skeleton
import proofs.«159242_j62079457296459_1_alg».proof.Proof.LibSage
import proofs.«159242_j62079457296459_1_alg».proof.Proof.OutLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open Facts₀ Facts
open Cert.OutLayer (outEntry outRelu)

/-! ## Which operand coordinates the two matrix products read -/

abbrev dA := dot_S2000x256_S256x256_S2000x256_1_0_0_1_n_n
abbrev dB := dot_S2000x256_S256x128_S2000x128_1_0_0_1_n_n

theorem dA_lhs0 (i : S2000x256.Idx) (q : dA.contr.Idx) : (dA.lhsIdx i q 0).val = (i 0).val := by
  unfold DotDims.lhsIdx
  rw [dif_neg (show ¬(0 : Fin S2000x256.rank) ∈ dA.lhsBatch by decide), dif_pos (show (0 : Fin S2000x256.rank) ∈ dA.lhsNonContracting by decide)]
  rfl
theorem dA_lhs1 (i : S2000x256.Idx) (q : dA.contr.Idx) : (dA.lhsIdx i q 1).val = (q ⟨0, by decide⟩).val :=
  dA.lhsIdx_val_of_single rfl i q
theorem dA_rhs0 (i : S2000x256.Idx) (q : dA.contr.Idx) : (dA.rhsIdx i q 0).val = (q ⟨0, by decide⟩).val :=
  dA.rhsIdx_val_of_single rfl i q
theorem dA_rhs1 (i : S2000x256.Idx) (q : dA.contr.Idx) : (dA.rhsIdx i q 1).val = (i 1).val := by
  unfold DotDims.rhsIdx
  rw [dif_neg (show ¬(1 : Fin S256x256.rank) ∈ dA.rhsBatch by decide), dif_pos (show (1 : Fin S256x256.rank) ∈ dA.rhsNonContracting by decide)]
  rfl

/-- Rows of a [2000, 256] block times columns of a [256, 256] matrix. -/
theorem dA_rows : Cert.Sage.RowsByCols (R := 2000) (K := 256) (N := 256) dA := ⟨rfl, rfl, dA_lhs0, dA_lhs1, dA_rhs0, dA_rhs1⟩

theorem dB_lhs0 (i : S2000x128.Idx) (q : dB.contr.Idx) : (dB.lhsIdx i q 0).val = (i 0).val := by
  unfold DotDims.lhsIdx
  rw [dif_neg (show ¬(0 : Fin S2000x256.rank) ∈ dB.lhsBatch by decide), dif_pos (show (0 : Fin S2000x256.rank) ∈ dB.lhsNonContracting by decide)]
  rfl
theorem dB_lhs1 (i : S2000x128.Idx) (q : dB.contr.Idx) : (dB.lhsIdx i q 1).val = (q ⟨0, by decide⟩).val :=
  dB.lhsIdx_val_of_single rfl i q
theorem dB_rhs0 (i : S2000x128.Idx) (q : dB.contr.Idx) : (dB.rhsIdx i q 0).val = (q ⟨0, by decide⟩).val :=
  dB.rhsIdx_val_of_single rfl i q
theorem dB_rhs1 (i : S2000x128.Idx) (q : dB.contr.Idx) : (dB.rhsIdx i q 1).val = (i 1).val := by
  unfold DotDims.rhsIdx
  rw [dif_neg (show ¬(1 : Fin S256x128.rank) ∈ dB.rhsBatch by decide), dif_pos (show (1 : Fin S256x128.rank) ∈ dB.rhsNonContracting by decide)]
  rfl

/-- Rows of a [2000, 256] block times columns of a [256, 128] matrix. -/
theorem dB_rows : Cert.Sage.RowsByCols (R := 2000) (K := 256) (N := 128) dB := ⟨rfl, rfl, dB_lhs0, dB_lhs1, dB_rhs0, dB_rhs1⟩

/-! ## The graph-convolution kernels' stored value at an entry (three launches, one body) -/

theorem conv0_at (v0 v2 : Vec Ideal S2000x256 .bf16) (v4 v6 : Vec Ideal S256x256 .bf16) (v8 : Vec Ideal S256 .f32)
    (p : Fin 2000) (q : Fin 256) :
    k0_pay1 (F := Ideal) v0 v2 v4 v6 v8 (ix2 p q)
      = max (Cert.Sage.entry v0 v2 v4 v6 (shapeCast S1x256 v8 Facts₀.shapeCasts_S256_S1x256) p q) (Ideal.ofBits .f32 0x00000000#32) := by
  unfold k0_pay1
  simp only [shapeCast_self]
  exact Cert.Sage.body_entry_relu dA dA_rows v0 v2 v4 v6 _ Facts₀.broadcasts_S1x256_S2000x256 p q

theorem conv1_at (v0 v2 : Vec Ideal S2000x256 .bf16) (v4 v6 : Vec Ideal S256x256 .bf16) (v8 : Vec Ideal S256 .f32)
    (p : Fin 2000) (q : Fin 256) :
    k1_pay1 (F := Ideal) v0 v2 v4 v6 v8 (ix2 p q)
      = max (Cert.Sage.entry v0 v2 v4 v6 (shapeCast S1x256 v8 Facts₀.shapeCasts_S256_S1x256) p q) (Ideal.ofBits .f32 0x00000000#32) := by
  unfold k1_pay1
  simp only [shapeCast_self]
  exact Cert.Sage.body_entry_relu dA dA_rows v0 v2 v4 v6 _ Facts₀.broadcasts_S1x256_S2000x256 p q

theorem conv2_at (v0 v2 : Vec Ideal S2000x256 .bf16) (v4 v6 : Vec Ideal S256x256 .bf16) (v8 : Vec Ideal S256 .f32)
    (p : Fin 2000) (q : Fin 256) :
    k2_pay1 (F := Ideal) v0 v2 v4 v6 v8 (ix2 p q)
      = max (Cert.Sage.entry v0 v2 v4 v6 (shapeCast S1x256 v8 Facts₀.shapeCasts_S256_S1x256) p q) (Ideal.ofBits .f32 0x00000000#32) := by
  unfold k2_pay1
  simp only [shapeCast_self]
  exact Cert.Sage.body_entry_relu dA dA_rows v0 v2 v4 v6 _ Facts₀.broadcasts_S1x256_S2000x256 p q

/-! ## The output kernel's stored value at an entry -/

theorem out3_at (v0 : Vec Ideal S2000x256 .bf16) (v2 : Vec Ideal S256x128 .bf16) (v4 : Vec Ideal S128 .f32)
    (p : Fin 2000) (q : Fin 128) :
    k3_pay1 (F := Ideal) v0 v2 v4 (ix2 p q) = max (outEntry v0 v2 v4 p q) (Ideal.ofBits .f32 0x00000000#32) := by
  unfold k3_pay1
  simp only [shapeCast_self]
  rw [maximumf_apply, broadcast_apply, addf_apply, Cert.Sage.matmul_at dB dB_rows, broadcastTo_1b_ab_apply, shapeCast_a_1a_apply]
  rfl

end Cert.KernelIdeal.Hand

end
-- ==== Proof.BlocksCommon.lean ====
/-
  From the blocks a launch writes back to its whole output array, over the extended reals.
  A graph-convolution launch has ten grid points; point t holds rows 2000 t ... 2000 t + 1999 of the aggregated features and
  of the node features, the two matrices and the bias whole, and writes back rows 2000 t ... 2000 t + 1999 of its output.
  An entry of a layer depends on one row of the two feature arrays only, so what point t writes back is block t of the
  layer of the WHOLE arrays; the ten blocks tile the 20000 rows, so the output array ends as that layer.
  This module has the part the launches share: the zero offsets of a whole-block access, and an entry of a block
  against the entry of the whole arrays at the row the block's row sits at.
-/
import proofs.«159242_j62079457296459_1_alg».proof.Proof.Body

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat Cfg Window)
open Facts₀ Facts
open Cert.OutLayer (outEntry outRelu)

theorem hz2 : (![0, 0] : Fin 2 → Nat) = fun _ => 0 := funext fun a => by fin_cases a <;> rfl
theorem hz1 : (![0] : Fin 1 → Nat) = fun _ => 0 := funext fun a => by fin_cases a <;> rfl

/-- An entry of a 2000-row block of a graph-convolution layer is the entry of the layer of the whole arrays at the row
    the block's row sits at: T blocks down, the same column. -/
theorem conv_block_entry (A H : FVec Ideal ⟨2, ![20000, 256]⟩ .f32) (wl wr : FVec Ideal ⟨2, ![256, 256]⟩ .f32)
    (brow : FVec Ideal ⟨2, ![1, 256]⟩ .f32) (x0 x1 : FVec Ideal ⟨2, ![2000, 256]⟩ .f32) (T : ℕ)
    (h0 : ∀ (x : (⟨2, ![2000, 256]⟩ : Shape).Idx) (k : (⟨2, ![20000, 256]⟩ : Shape).Idx),
      (k 0).val = 2000 * T + (x 0).val → (k 1).val = (x 1).val → x0 x = A k)
    (h1 : ∀ (x : (⟨2, ![2000, 256]⟩ : Shape).Idx) (k : (⟨2, ![20000, 256]⟩ : Shape).Idx),
      (k 0).val = 2000 * T + (x 0).val → (k 1).val = (x 1).val → x1 x = H k)
    (j : (⟨2, ![2000, 256]⟩ : Shape).Idx) (i : (⟨2, ![20000, 256]⟩ : Shape).Idx)
    (hi0 : (i 0).val = 2000 * T + (j 0).val) (hi1 : (i 1).val = (j 1).val) :
    max (Cert.Sage.entry x0 x1 wl wr brow (j 0) (j 1)) (Ideal.ofBits .f32 0x00000000#32)
      = Cert.Sage.convRelu A H wl wr brow i := by
  obtain ⟨p, q, rfl⟩ : ∃ (p : Fin 20000) (q : Fin 256), i = ix2 p q := ⟨i 0, i 1, eq_ix2 i⟩
  rw [Cert.Sage.convRelu_apply]
  have hq : j 1 = q := Fin.ext hi1.symm
  rw [hq]
  refine congrArg (fun e => max e (Ideal.ofBits .f32 0x00000000#32)) ?_
  exact (Cert.Sage.entry_congr A H x0 x1 wl wr brow p (j 0) q
    (fun k => (h0 (ix2 (j 0) k) (ix2 p k) hi0 rfl).symm) (fun k => (h1 (ix2 (j 0) k) (ix2 p k) hi0 rfl).symm)).symm

/-- The same for the output layer: one row of the features against the matrix, plus the bias. -/
theorem out_block_entry (H : FVec Ideal ⟨2, ![20000, 256]⟩ .f32) (w : FVec Ideal ⟨2, ![256, 128]⟩ .f32)
    (b : FVec Ideal ⟨1, ![128]⟩ .f32) (x0 : FVec Ideal ⟨2, ![2000, 256]⟩ .f32) (T : ℕ)
    (h0 : ∀ (x : (⟨2, ![2000, 256]⟩ : Shape).Idx) (k : (⟨2, ![20000, 256]⟩ : Shape).Idx),
      (k 0).val = 2000 * T + (x 0).val → (k 1).val = (x 1).val → x0 x = H k)
    (j : (⟨2, ![2000, 128]⟩ : Shape).Idx) (i : (⟨2, ![20000, 128]⟩ : Shape).Idx)
    (hi0 : (i 0).val = 2000 * T + (j 0).val) (hi1 : (i 1).val = (j 1).val) :
    outEntry x0 w b (j 0) (j 1) = outEntry H w b (i 0) (i 1) := by
  have hq : j 1 = i 1 := Fin.ext hi1.symm
  rw [hq]
  unfold outEntry
  refine congrArg (fun e => e + b (ix1 (i 1))) ?_
  exact Finset.sum_congr rfl fun k _ => by rw [h0 (ix2 (j 0) k) (ix2 (i 0) k) hi0 rfl]

end Cert.KernelIdeal.Hand

end
-- ==== Proof.Blocks0.lean ====
/-
  Launch 0 of the graph-convolution kernel: its output array after the launch is the layer of the arrays it was
  entered with — whatever those are —, every entry at once. Point t's blocks of the two feature arrays are rows
  2000 t ... 2000 t + 1999; the matrices and the bias are whole at every point; the ten written blocks tile the output.
-/
import proofs.«159242_j62079457296459_1_alg».proof.Proof.Gen.KernelIdeal.Frame
import proofs.«159242_j62079457296459_1_alg».proof.Proof.Body
import proofs.«159242_j62079457296459_1_alg».proof.Proof.BlocksCommon
set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat Cfg Window)
open Facts₀ Facts

section
variable (V : (c : Dev nD) → (b : Ref sig .tc) → Buf (Elt Ideal) ((c : Thread nD τ).loc b))

/-- The printed index maps over the grid: the row blocks move with the point, everything else stays. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Point t's block of the aggregated features is rows 2000 t ... of the array. -/
theorem rows0_0 (c : Dev nD) (t : Fin cfg0.N) (x : S2000x256.Idx) (k : S20000x256.Idx)
    (hk0 : (k 0).val = 2000 * t.val + (x 0).val) (hk1 : (k 1).val = (x 1).val) :
    (iblk0 V c 0 t : Vec Ideal S2000x256 .bf16) x = (V c main_v23 : S20000x256.Idx → EReal) k := by
  obtain ⟨e0, e1, -⟩ := idx0 t
  unfold iblk0
  rw [View.read_apply]
  show V c main_v23 _ = V c main_v23 k
  refine congrArg _ ?_
  funext a; apply Fin.ext
  match a with
  | ⟨0, _⟩ => show win0_0.index t (0 : Fin 2) * 2000 + 1 * (x 0).val = (k 0).val; rw [e0, hk0]; omega
  | ⟨1, _⟩ => show win0_0.index t (1 : Fin 2) * 256 + 1 * (x 1).val = (k 1).val; rw [e1, hk1]; omega

/-- Point t's block of the node features is rows 2000 t ... of the array. -/
theorem rows0_1 (c : Dev nD) (t : Fin cfg0.N) (x : S2000x256.Idx) (k : S20000x256.Idx)
    (hk0 : (k 0).val = 2000 * t.val + (x 0).val) (hk1 : (k 1).val = (x 1).val) :
    (iblk0 V c 1 t : Vec Ideal S2000x256 .bf16) x = (V c main_v24 : S20000x256.Idx → EReal) k := by
  obtain ⟨-, -, e0, e1, -⟩ := idx0 t
  unfold iblk0
  rw [View.read_apply]
  show V c main_v24 _ = V c main_v24 k
  refine congrArg _ ?_
  funext a; apply Fin.ext
  match a with
  | ⟨0, _⟩ => show win0_1.index t (0 : Fin 2) * 2000 + 1 * (x 0).val = (k 0).val; rw [e0, hk0]; omega
  | ⟨1, _⟩ => show win0_1.index t (1 : Fin 2) * 256 + 1 * (x 1).val = (k 1).val; rw [e1, hk1]; omega

/-- The first matrix is whole at every point. -/
theorem whole0_2 (c : Dev nD) (t : Fin cfg0.N) :
    (iblk0 V c 2 t : Vec Ideal S256x256 .bf16) = (V c main_v25 : S256x256.Idx → EReal) := by
  obtain ⟨-, -, -, -, e0, e1, -⟩ := idx0 t
  funext x
  unfold iblk0
  rw [View.read_apply]
  show V c main_v25 _ = V c main_v25 x
  refine congrArg _ ?_
  funext a; apply Fin.ext
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega

/-- The second matrix is whole at every point. -/
theorem whole0_3 (c : Dev nD) (t : Fin cfg0.N) :
    (iblk0 V c 3 t : Vec Ideal S256x256 .bf16) = (V c main_v26 : S256x256.Idx → EReal) := by
  obtain ⟨-, -, -, -, -, -, e0, e1, -⟩ := idx0 t
  funext x
  unfold iblk0
  rw [View.read_apply]
  show V c main_v26 _ = V c main_v26 x
  refine congrArg _ ?_
  funext a; apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- The bias is whole at every point. -/
theorem whole0_4 (c : Dev nD) (t : Fin cfg0.N) :
    (iblk0 V c 4 t : Vec Ideal S256 .f32) = (V c main_v20 : S256.Idx → EReal) := by
  obtain ⟨-, -, -, -, -, -, -, -, e0, -⟩ := idx0 t
  funext x
  unfold iblk0
  rw [View.read_apply]
  show V c main_v20 _ = V c main_v20 x
  refine congrArg _ ?_
  funext a; apply Fin.ext
  match a with
  | ⟨0, _⟩ => show win0_4.index t (0 : Fin 1) * 256 + 1 * (x 0).val = (x 0).val; rw [e0]; omega

/-- The layer of the arrays the launch is entered with. -/
def layer0 (c : Dev nD) : S20000x256.Idx → EReal :=
  Cert.Sage.convRelu (V c main_v23 : S20000x256.Idx → EReal) (V c main_v24 : S20000x256.Idx → EReal)
    (V c main_v25 : S256x256.Idx → EReal) (V c main_v26 : S256x256.Idx → EReal)
    (shapeCast S1x256 (V c main_v20 : S256.Idx → EReal) Facts₀.shapeCasts_S256_S1x256)

/-- What point t writes back is block t of that layer. -/
theorem flushed0 (c : Dev nD) (t : Fin cfg0.N) :
    (dat0 V c).flushed 5 t = ((cfg0.win 5).blk t).view.read (Elt Ideal) (layer0 V c) := by
  obtain ⟨-, -, -, -, -, -, -, -, -, e0, e1⟩ := idx0 t
  show (cfg0.win 5).cut (grid0.coords t) ((dat0 V c).after 5 t) = _
  rw [after0_5]
  unfold out0_5
  rw [View.canon_unit_zero hz2]
  simp only [View.ld_unit_zero (S := S2000x256) hz2, View.ld_unit_zero (S := S256x256) hz2, View.ld_unit_zero (S := S256) hz1]
  rw [whole0_2 V c t, whole0_3 V c t, whole0_4 V c t]
  funext j
  show k0_pay1 (F := Ideal) (iblk0 V c 0 t) (iblk0 V c 1 t) _ _ _ j = layer0 V c (((cfg0.win 5).blk t).view.emb j)
  obtain ⟨p, q, rfl⟩ : ∃ (p : Fin 2000) (q : Fin 256), j = ix2 p q := ⟨j 0, j 1, eq_ix2 j⟩
  refine (conv0_at _ _ _ _ _ p q).trans ?_
  refine conv_block_entry _ _ _ _ _ (iblk0 V c 0 t) (iblk0 V c 1 t) t.val (rows0_0 V c t) (rows0_1 V c t) (ix2 p q) _ ?_ ?_
  · show win0_5.index t (0 : Fin 2) * 2000 + 1 * p.val = 2000 * t.val + p.val; rw [e0]; omega
  · show win0_5.index t (1 : Fin 2) * 256 + 1 * q.val = q.val; rw [e1]; omega

/-- An index of the output array is in point t's block iff each coordinate is in the block's range on its axis. -/
theorem mem_blk0 (t : Fin cfg0.N) (i : S20000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v27).slice (win0_5.rect t)).set ↔ _
  rw [View.set_slice_whole, Rect.mem_set_unit]
  exact Iff.rfl

/-- The output array after the launch: the layer of the entry contents. Row r is written by point r / 2000. -/
theorem final0 (c : Dev nD) : (dat0 V c).arrAt 5 cfg0.N = layer0 V c :=
  (dat0 V c).arrAt_eq_of_cover 5 (layer0 V c) (fun t _ => flushed0 V c t) fun i => by
    have hi0 : (i 0).val < 20000 := (i 0).isLt
    have hi1 : (i 1).val < 256 := (i 1).isLt
    have hN : cfg0.N = 10 := N_0
    have ht : (i 0).val / 2000 < cfg0.N := by rw [hN]; omega
    obtain ⟨-, -, -, -, -, -, -, -, -, e0, e1⟩ := idx0 ⟨(i 0).val / 2000, ht⟩
    refine ⟨⟨(i 0).val / 2000, ht⟩, flush0_5 _, ?_⟩
    rw [mem_blk0]
    intro a
    match a with
    | ⟨0, _⟩ => show win0_5.index ⟨(i 0).val / 2000, ht⟩ (0 : Fin 2) * 2000 ≤ (i 0).val ∧ (i 0).val < win0_5.index ⟨(i 0).val / 2000, ht⟩ (0 : Fin 2) * 2000 + 2000; rw [e0]; show (i 0).val / 2000 * 2000 ≤ (i 0).val ∧ (i 0).val < (i 0).val / 2000 * 2000 + 2000; omega
    | ⟨1, _⟩ => show win0_5.index ⟨(i 0).val / 2000, ht⟩ (1 : Fin 2) * 256 ≤ (i 1).val ∧ (i 1).val < win0_5.index ⟨(i 0).val / 2000, ht⟩ (1 : Fin 2) * 256 + 256; rw [e1]; omega

end

end Cert.KernelIdeal.Hand

end
-- ==== Proof.Blocks1.lean ====
/-
  Launch 1 of the graph-convolution kernel: its output array after the launch is the layer of the arrays it was
  entered with — whatever those are —, every entry at once. Point t's blocks of the two feature arrays are rows
  2000 t ... 2000 t + 1999; the matrices and the bias are whole at every point; the ten written blocks tile the output.
-/
import proofs.«159242_j62079457296459_1_alg».proof.Proof.Gen.KernelIdeal.Frame
import proofs.«159242_j62079457296459_1_alg».proof.Proof.Body
import proofs.«159242_j62079457296459_1_alg».proof.Proof.BlocksCommon
set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat Cfg Window)
open Facts₀ Facts

section
variable (V : (c : Dev nD) → (b : Ref sig .tc) → Buf (Elt Ideal) ((c : Thread nD τ).loc b))

/-- The printed index maps over the grid: the row blocks move with the point, everything else stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Point t's block of the aggregated features is rows 2000 t ... of the array. -/
theorem rows1_0 (c : Dev nD) (t : Fin cfg1.N) (x : S2000x256.Idx) (k : S20000x256.Idx)
    (hk0 : (k 0).val = 2000 * t.val + (x 0).val) (hk1 : (k 1).val = (x 1).val) :
    (iblk1 V c 0 t : Vec Ideal S2000x256 .bf16) x = (V c main_v47 : S20000x256.Idx → EReal) k := by
  obtain ⟨e0, e1, -⟩ := idx1 t
  unfold iblk1
  rw [View.read_apply]
  show V c main_v47 _ = V c main_v47 k
  refine congrArg _ ?_
  funext a; apply Fin.ext
  match a with
  | ⟨0, _⟩ => show win1_0.index t (0 : Fin 2) * 2000 + 1 * (x 0).val = (k 0).val; rw [e0, hk0]; omega
  | ⟨1, _⟩ => show win1_0.index t (1 : Fin 2) * 256 + 1 * (x 1).val = (k 1).val; rw [e1, hk1]; omega

/-- Point t's block of the node features is rows 2000 t ... of the array. -/
theorem rows1_1 (c : Dev nD) (t : Fin cfg1.N) (x : S2000x256.Idx) (k : S20000x256.Idx)
    (hk0 : (k 0).val = 2000 * t.val + (x 0).val) (hk1 : (k 1).val = (x 1).val) :
    (iblk1 V c 1 t : Vec Ideal S2000x256 .bf16) x = (V c main_v48 : S20000x256.Idx → EReal) k := by
  obtain ⟨-, -, e0, e1, -⟩ := idx1 t
  unfold iblk1
  rw [View.read_apply]
  show V c main_v48 _ = V c main_v48 k
  refine congrArg _ ?_
  funext a; apply Fin.ext
  match a with
  | ⟨0, _⟩ => show win1_1.index t (0 : Fin 2) * 2000 + 1 * (x 0).val = (k 0).val; rw [e0, hk0]; omega
  | ⟨1, _⟩ => show win1_1.index t (1 : Fin 2) * 256 + 1 * (x 1).val = (k 1).val; rw [e1, hk1]; omega

/-- The first matrix is whole at every point. -/
theorem whole1_2 (c : Dev nD) (t : Fin cfg1.N) :
    (iblk1 V c 2 t : Vec Ideal S256x256 .bf16) = (V c main_v49 : S256x256.Idx → EReal) := by
  obtain ⟨-, -, -, -, e0, e1, -⟩ := idx1 t
  funext x
  unfold iblk1
  rw [View.read_apply]
  show V c main_v49 _ = V c main_v49 x
  refine congrArg _ ?_
  funext a; apply Fin.ext
  match a with
  | ⟨0, _⟩ => show win1_2.index t (0 : Fin 2) * 256 + 1 * (x 0).val = (x 0).val; rw [e0]; omega
  | ⟨1, _⟩ => show win1_2.index t (1 : Fin 2) * 256 + 1 * (x 1).val = (x 1).val; rw [e1]; omega

/-- The second matrix is whole at every point. -/
theorem whole1_3 (c : Dev nD) (t : Fin cfg1.N) :
    (iblk1 V c 3 t : Vec Ideal S256x256 .bf16) = (V c main_v50 : S256x256.Idx → EReal) := by
  obtain ⟨-, -, -, -, -, -, e0, e1, -⟩ := idx1 t
  funext x
  unfold iblk1
  rw [View.read_apply]
  show V c main_v50 _ = V c main_v50 x
  refine congrArg _ ?_
  funext a; apply Fin.ext
  match a with
  | ⟨0, _⟩ => show win1_3.index t (0 : Fin 2) * 256 + 1 * (x 0).val = (x 0).val; rw [e0]; omega
  | ⟨1, _⟩ => show win1_3.index t (1 : Fin 2) * 256 + 1 * (x 1).val = (x 1).val; rw [e1]; omega

/-- The bias is whole at every point. -/
theorem whole1_4 (c : Dev nD) (t : Fin cfg1.N) :
    (iblk1 V c 4 t : Vec Ideal S256 .f32) = (V c main_v44 : S256.Idx → EReal) := by
  obtain ⟨-, -, -, -, -, -, -, -, e0, -⟩ := idx1 t
  funext x
  unfold iblk1
  rw [View.read_apply]
  show V c main_v44 _ = V c main_v44 x
  refine congrArg _ ?_
  funext a; apply Fin.ext
  match a with
  | ⟨0, _⟩ => show win1_4.index t (0 : Fin 1) * 256 + 1 * (x 0).val = (x 0).val; rw [e0]; omega

/-- The layer of the arrays the launch is entered with. -/
def layer1 (c : Dev nD) : S20000x256.Idx → EReal :=
  Cert.Sage.convRelu (V c main_v47 : S20000x256.Idx → EReal) (V c main_v48 : S20000x256.Idx → EReal)
    (V c main_v49 : S256x256.Idx → EReal) (V c main_v50 : S256x256.Idx → EReal)
    (shapeCast S1x256 (V c main_v44 : S256.Idx → EReal) Facts₀.shapeCasts_S256_S1x256)

/-- What point t writes back is block t of that layer. -/
theorem flushed1 (c : Dev nD) (t : Fin cfg1.N) :
    (dat1 V c).flushed 5 t = ((cfg1.win 5).blk t).view.read (Elt Ideal) (layer1 V c) := by
  obtain ⟨-, -, -, -, -, -, -, -, -, e0, e1⟩ := idx1 t
  show (cfg1.win 5).cut (grid1.coords t) ((dat1 V c).after 5 t) = _
  rw [after1_5]
  unfold out1_5
  rw [View.canon_unit_zero hz2]
  simp only [View.ld_unit_zero (S := S2000x256) hz2, View.ld_unit_zero (S := S256x256) hz2, View.ld_unit_zero (S := S256) hz1]
  rw [whole1_2 V c t, whole1_3 V c t, whole1_4 V c t]
  funext j
  show k1_pay1 (F := Ideal) (iblk1 V c 0 t) (iblk1 V c 1 t) _ _ _ j = layer1 V c (((cfg1.win 5).blk t).view.emb j)
  obtain ⟨p, q, rfl⟩ : ∃ (p : Fin 2000) (q : Fin 256), j = ix2 p q := ⟨j 0, j 1, eq_ix2 j⟩
  refine (conv1_at _ _ _ _ _ p q).trans ?_
  refine conv_block_entry _ _ _ _ _ (iblk1 V c 0 t) (iblk1 V c 1 t) t.val (rows1_0 V c t) (rows1_1 V c t) (ix2 p q) _ ?_ ?_
  · show win1_5.index t (0 : Fin 2) * 2000 + 1 * p.val = 2000 * t.val + p.val; rw [e0]; omega
  · show win1_5.index t (1 : Fin 2) * 256 + 1 * q.val = q.val; rw [e1]; omega

/-- An index of the output array is in point t's block iff each coordinate is in the block's range on its axis. -/
theorem mem_blk1 (t : Fin cfg1.N) (i : S20000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v51).slice (win1_5.rect t)).set ↔ _
  rw [View.set_slice_whole, Rect.mem_set_unit]
  exact Iff.rfl

/-- The output array after the launch: the layer of the entry contents. Row r is written by point r / 2000. -/
theorem final1 (c : Dev nD) : (dat1 V c).arrAt 5 cfg1.N = layer1 V c :=
  (dat1 V c).arrAt_eq_of_cover 5 (layer1 V c) (fun t _ => flushed1 V c t) fun i => by
    have hi0 : (i 0).val < 20000 := (i 0).isLt
    have hi1 : (i 1).val < 256 := (i 1).isLt
    have hN : cfg1.N = 10 := N_1
    have ht : (i 0).val / 2000 < cfg1.N := by rw [hN]; omega
    obtain ⟨-, -, -, -, -, -, -, -, -, e0, e1⟩ := idx1 ⟨(i 0).val / 2000, ht⟩
    refine ⟨⟨(i 0).val / 2000, ht⟩, flush1_5 _, ?_⟩
    rw [mem_blk1]
    intro a
    match a with
    | ⟨0, _⟩ => show win1_5.index ⟨(i 0).val / 2000, ht⟩ (0 : Fin 2) * 2000 ≤ (i 0).val ∧ (i 0).val < win1_5.index ⟨(i 0).val / 2000, ht⟩ (0 : Fin 2) * 2000 + 2000; rw [e0]; show (i 0).val / 2000 * 2000 ≤ (i 0).val ∧ (i 0).val < (i 0).val / 2000 * 2000 + 2000; omega
    | ⟨1, _⟩ => show win1_5.index ⟨(i 0).val / 2000, ht⟩ (1 : Fin 2) * 256 ≤ (i 1).val ∧ (i 1).val < win1_5.index ⟨(i 0).val / 2000, ht⟩ (1 : Fin 2) * 256 + 256; rw [e1]; omega

end

end Cert.KernelIdeal.Hand

end
-- ==== Proof.Blocks2.lean ====
/-
  Launch 2 of the graph-convolution kernel: its output array after the launch is the layer of the arrays it was
  entered with — whatever those are —, every entry at once. Point t's blocks of the two feature arrays are rows
  2000 t ... 2000 t + 1999; the matrices and the bias are whole at every point; the ten written blocks tile the output.
-/
import proofs.«159242_j62079457296459_1_alg».proof.Proof.Gen.KernelIdeal.Frame
import proofs.«159242_j62079457296459_1_alg».proof.Proof.Body
import proofs.«159242_j62079457296459_1_alg».proof.Proof.BlocksCommon
set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat Cfg Window)
open Facts₀ Facts

section
variable (V : (c : Dev nD) → (b : Ref sig .tc) → Buf (Elt Ideal) ((c : Thread nD τ).loc b))

/-- The printed index maps over the grid: the row blocks move with the point, everything else stays. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Point t's block of the aggregated features is rows 2000 t ... of the array. -/
theorem rows2_0 (c : Dev nD) (t : Fin cfg2.N) (x : S2000x256.Idx) (k : S20000x256.Idx)
    (hk0 : (k 0).val = 2000 * t.val + (x 0).val) (hk1 : (k 1).val = (x 1).val) :
    (iblk2 V c 0 t : Vec Ideal S2000x256 .bf16) x = (V c main_v71 : S20000x256.Idx → EReal) k := by
  obtain ⟨e0, e1, -⟩ := idx2 t
  unfold iblk2
  rw [View.read_apply]
  show V c main_v71 _ = V c main_v71 k
  refine congrArg _ ?_
  funext a; apply Fin.ext
  match a with
  | ⟨0, _⟩ => show win2_0.index t (0 : Fin 2) * 2000 + 1 * (x 0).val = (k 0).val; rw [e0, hk0]; omega
  | ⟨1, _⟩ => show win2_0.index t (1 : Fin 2) * 256 + 1 * (x 1).val = (k 1).val; rw [e1, hk1]; omega

/-- Point t's block of the node features is rows 2000 t ... of the array. -/
theorem rows2_1 (c : Dev nD) (t : Fin cfg2.N) (x : S2000x256.Idx) (k : S20000x256.Idx)
    (hk0 : (k 0).val = 2000 * t.val + (x 0).val) (hk1 : (k 1).val = (x 1).val) :
    (iblk2 V c 1 t : Vec Ideal S2000x256 .bf16) x = (V c main_v72 : S20000x256.Idx → EReal) k := by
  obtain ⟨-, -, e0, e1, -⟩ := idx2 t
  unfold iblk2
  rw [View.read_apply]
  show V c main_v72 _ = V c main_v72 k
  refine congrArg _ ?_
  funext a; apply Fin.ext
  match a with
  | ⟨0, _⟩ => show win2_1.index t (0 : Fin 2) * 2000 + 1 * (x 0).val = (k 0).val; rw [e0, hk0]; omega
  | ⟨1, _⟩ => show win2_1.index t (1 : Fin 2) * 256 + 1 * (x 1).val = (k 1).val; rw [e1, hk1]; omega

/-- The first matrix is whole at every point. -/
theorem whole2_2 (c : Dev nD) (t : Fin cfg2.N) :
    (iblk2 V c 2 t : Vec Ideal S256x256 .bf16) = (V c main_v73 : S256x256.Idx → EReal) := by
  obtain ⟨-, -, -, -, e0, e1, -⟩ := idx2 t
  funext x
  unfold iblk2
  rw [View.read_apply]
  show V c main_v73 _ = V c main_v73 x
  refine congrArg _ ?_
  funext a; apply Fin.ext
  match a with
  | ⟨0, _⟩ => show win2_2.index t (0 : Fin 2) * 256 + 1 * (x 0).val = (x 0).val; rw [e0]; omega
  | ⟨1, _⟩ => show win2_2.index t (1 : Fin 2) * 256 + 1 * (x 1).val = (x 1).val; rw [e1]; omega

/-- The second matrix is whole at every point. -/
theorem whole2_3 (c : Dev nD) (t : Fin cfg2.N) :
    (iblk2 V c 3 t : Vec Ideal S256x256 .bf16) = (V c main_v74 : S256x256.Idx → EReal) := by
  obtain ⟨-, -, -, -, -, -, e0, e1, -⟩ := idx2 t
  funext x
  unfold iblk2
  rw [View.read_apply]
  show V c main_v74 _ = V c main_v74 x
  refine congrArg _ ?_
  funext a; apply Fin.ext
  match a with
  | ⟨0, _⟩ => show win2_3.index t (0 : Fin 2) * 256 + 1 * (x 0).val = (x 0).val; rw [e0]; omega
  | ⟨1, _⟩ => show win2_3.index t (1 : Fin 2) * 256 + 1 * (x 1).val = (x 1).val; rw [e1]; omega

/-- The bias is whole at every point. -/
theorem whole2_4 (c : Dev nD) (t : Fin cfg2.N) :
    (iblk2 V c 4 t : Vec Ideal S256 .f32) = (V c main_v68 : S256.Idx → EReal) := by
  obtain ⟨-, -, -, -, -, -, -, -, e0, -⟩ := idx2 t
  funext x
  unfold iblk2
  rw [View.read_apply]
  show V c main_v68 _ = V c main_v68 x
  refine congrArg _ ?_
  funext a; apply Fin.ext
  match a with
  | ⟨0, _⟩ => show win2_4.index t (0 : Fin 1) * 256 + 1 * (x 0).val = (x 0).val; rw [e0]; omega

/-- The layer of the arrays the launch is entered with. -/
def layer2 (c : Dev nD) : S20000x256.Idx → EReal :=
  Cert.Sage.convRelu (V c main_v71 : S20000x256.Idx → EReal) (V c main_v72 : S20000x256.Idx → EReal)
    (V c main_v73 : S256x256.Idx → EReal) (V c main_v74 : S256x256.Idx → EReal)
    (shapeCast S1x256 (V c main_v68 : S256.Idx → EReal) Facts₀.shapeCasts_S256_S1x256)

/-- What point t writes back is block t of that layer. -/
theorem flushed2 (c : Dev nD) (t : Fin cfg2.N) :
    (dat2 V c).flushed 5 t = ((cfg2.win 5).blk t).view.read (Elt Ideal) (layer2 V c) := by
  obtain ⟨-, -, -, -, -, -, -, -, -, e0, e1⟩ := idx2 t
  show (cfg2.win 5).cut (grid2.coords t) ((dat2 V c).after 5 t) = _
  rw [after2_5]
  unfold out2_5
  rw [View.canon_unit_zero hz2]
  simp only [View.ld_unit_zero (S := S2000x256) hz2, View.ld_unit_zero (S := S256x256) hz2, View.ld_unit_zero (S := S256) hz1]
  rw [whole2_2 V c t, whole2_3 V c t, whole2_4 V c t]
  funext j
  show k2_pay1 (F := Ideal) (iblk2 V c 0 t) (iblk2 V c 1 t) _ _ _ j = layer2 V c (((cfg2.win 5).blk t).view.emb j)
  obtain ⟨p, q, rfl⟩ : ∃ (p : Fin 2000) (q : Fin 256), j = ix2 p q := ⟨j 0, j 1, eq_ix2 j⟩
  refine (conv2_at _ _ _ _ _ p q).trans ?_
  refine conv_block_entry _ _ _ _ _ (iblk2 V c 0 t) (iblk2 V c 1 t) t.val (rows2_0 V c t) (rows2_1 V c t) (ix2 p q) _ ?_ ?_
  · show win2_5.index t (0 : Fin 2) * 2000 + 1 * p.val = 2000 * t.val + p.val; rw [e0]; omega
  · show win2_5.index t (1 : Fin 2) * 256 + 1 * q.val = q.val; rw [e1]; omega

/-- An index of the output array is in point t's block iff each coordinate is in the block's range on its axis. -/
theorem mem_blk2 (t : Fin cfg2.N) (i : S20000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v75).slice (win2_5.rect t)).set ↔ _
  rw [View.set_slice_whole, Rect.mem_set_unit]
  exact Iff.rfl

/-- The output array after the launch: the layer of the entry contents. Row r is written by point r / 2000. -/
theorem final2 (c : Dev nD) : (dat2 V c).arrAt 5 cfg2.N = layer2 V c :=
  (dat2 V c).arrAt_eq_of_cover 5 (layer2 V c) (fun t _ => flushed2 V c t) fun i => by
    have hi0 : (i 0).val < 20000 := (i 0).isLt
    have hi1 : (i 1).val < 256 := (i 1).isLt
    have hN : cfg2.N = 10 := N_2
    have ht : (i 0).val / 2000 < cfg2.N := by rw [hN]; omega
    obtain ⟨-, -, -, -, -, -, -, -, -, e0, e1⟩ := idx2 ⟨(i 0).val / 2000, ht⟩
    refine ⟨⟨(i 0).val / 2000, ht⟩, flush2_5 _, ?_⟩
    rw [mem_blk2]
    intro a
    match a with
    | ⟨0, _⟩ => show win2_5.index ⟨(i 0).val / 2000, ht⟩ (0 : Fin 2) * 2000 ≤ (i 0).val ∧ (i 0).val < win2_5.index ⟨(i 0).val / 2000, ht⟩ (0 : Fin 2) * 2000 + 2000; rw [e0]; show (i 0).val / 2000 * 2000 ≤ (i 0).val ∧ (i 0).val < (i 0).val / 2000 * 2000 + 2000; omega
    | ⟨1, _⟩ => show win2_5.index ⟨(i 0).val / 2000, ht⟩ (1 : Fin 2) * 256 ≤ (i 1).val ∧ (i 1).val < win2_5.index ⟨(i 0).val / 2000, ht⟩ (1 : Fin 2) * 256 + 256; rw [e1]; omega

end

end Cert.KernelIdeal.Hand

end
-- ==== Proof.Blocks3.lean ====
/-
  The launch of the output kernel: its output array after the launch is the output layer of the arrays it was entered
  with, every entry at once. Point t's block of the features is rows 2000 t ... 2000 t + 1999; the matrix and the bias are
  whole at every point; point t writes back rows 2000 t ... 2000 t + 1999 of the [20000, 128] result, and the ten blocks tile it.
-/
import proofs.«159242_j62079457296459_1_alg».proof.Proof.Gen.KernelIdeal.Frame
import proofs.«159242_j62079457296459_1_alg».proof.Proof.Body
import proofs.«159242_j62079457296459_1_alg».proof.Proof.BlocksCommon
set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat Cfg Window)
open Facts₀ Facts
open Cert.OutLayer (outEntry outRelu)

section
variable (V : (c : Dev nD) → (b : Ref sig .tc) → Buf (Elt Ideal) ((c : Thread nD τ).loc b))

/-- The printed index maps over the grid: the row blocks move with the point, everything else stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Point t's block of the features is rows 2000 t ... of the array. -/
theorem rows3_0 (c : Dev nD) (t : Fin cfg3.N) (x : S2000x256.Idx) (k : S20000x256.Idx)
    (hk0 : (k 0).val = 2000 * t.val + (x 0).val) (hk1 : (k 1).val = (x 1).val) :
    (iblk3 V c 0 t : Vec Ideal S2000x256 .bf16) x = (V c main_v76 : S20000x256.Idx → EReal) k := by
  obtain ⟨e0, e1, -⟩ := idx3 t
  unfold iblk3
  rw [View.read_apply]
  show V c main_v76 _ = V c main_v76 k
  refine congrArg _ ?_
  funext a; apply Fin.ext
  match a with
  | ⟨0, _⟩ => show win3_0.index t (0 : Fin 2) * 2000 + 1 * (x 0).val = (k 0).val; rw [e0, hk0]; omega
  | ⟨1, _⟩ => show win3_0.index t (1 : Fin 2) * 256 + 1 * (x 1).val = (k 1).val; rw [e1, hk1]; omega

/-- The matrix is whole at every point. -/
theorem whole3_1 (c : Dev nD) (t : Fin cfg3.N) :
    (iblk3 V c 1 t : Vec Ideal S256x128 .bf16) = (V c main_v77 : S256x128.Idx → EReal) := by
  obtain ⟨-, -, e0, e1, -⟩ := idx3 t
  funext x
  unfold iblk3
  rw [View.read_apply]
  show V c main_v77 _ = V c main_v77 x
  refine congrArg _ ?_
  funext a; apply Fin.ext
  match a with
  | ⟨0, _⟩ => show win3_1.index t (0 : Fin 2) * 256 + 1 * (x 0).val = (x 0).val; rw [e0]; omega
  | ⟨1, _⟩ => show win3_1.index t (1 : Fin 2) * 128 + 1 * (x 1).val = (x 1).val; rw [e1]; omega

/-- The bias is whole at every point. -/
theorem whole3_2 (c : Dev nD) (t : Fin cfg3.N) :
    (iblk3 V c 2 t : Vec Ideal S128 .f32) = (V c main_arg7 : S128.Idx → EReal) := by
  obtain ⟨-, -, -, -, e0, -⟩ := idx3 t
  funext x
  unfold iblk3
  rw [View.read_apply]
  show V c main_arg7 _ = V c main_arg7 x
  refine congrArg _ ?_
  funext a; apply Fin.ext
  match a with
  | ⟨0, _⟩ => show win3_2.index t (0 : Fin 1) * 128 + 1 * (x 0).val = (x 0).val; rw [e0]; omega

/-- The output layer of the arrays the launch is entered with. -/
def layer3 (c : Dev nD) : S20000x128.Idx → EReal :=
  outRelu (V c main_v76 : S20000x256.Idx → EReal) (V c main_v77 : S256x128.Idx → EReal) (V c main_arg7 : S128.Idx → EReal)

/-- What point t writes back is block t of that layer. -/
theorem flushed3 (c : Dev nD) (t : Fin cfg3.N) :
    (dat3 V c).flushed 3 t = ((cfg3.win 3).blk t).view.read (Elt Ideal) (layer3 V c) := by
  obtain ⟨-, -, -, -, -, e0, e1⟩ := idx3 t
  show (cfg3.win 3).cut (grid3.coords t) ((dat3 V c).after 3 t) = _
  rw [after3_3]
  unfold out3_3
  rw [View.canon_unit_zero hz2]
  simp only [View.ld_unit_zero (S := S2000x256) hz2, View.ld_unit_zero (S := S256x128) hz2, View.ld_unit_zero (S := S128) hz1]
  rw [whole3_1 V c t, whole3_2 V c t]
  funext j
  show k3_pay1 (F := Ideal) (iblk3 V c 0 t) _ _ j = layer3 V c (((cfg3.win 3).blk t).view.emb j)
  obtain ⟨p, q, rfl⟩ : ∃ (p : Fin 2000) (q : Fin 128), j = ix2 p q := ⟨j 0, j 1, eq_ix2 j⟩
  refine (out3_at _ _ _ p q).trans ?_
  unfold layer3
  rw [Cert.OutLayer.outRelu_apply]
  refine congrArg (fun e => max e (Ideal.ofBits .f32 0x00000000#32)) ?_
  refine out_block_entry _ _ _ (iblk3 V c 0 t) t.val (rows3_0 V c t) (ix2 p q) _ ?_ ?_
  · show win3_3.index t (0 : Fin 2) * 2000 + 1 * p.val = 2000 * t.val + p.val; rw [e0]; omega
  · show win3_3.index t (1 : Fin 2) * 128 + 1 * q.val = q.val; rw [e1]; omega

/-- An index of the output array is in point t's block iff each coordinate is in the block's range on its axis. -/
theorem mem_blk3 (t : Fin cfg3.N) (i : S20000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v78).slice (win3_3.rect t)).set ↔ _
  rw [View.set_slice_whole, Rect.mem_set_unit]
  exact Iff.rfl

/-- The result array after the launch: the output layer of the entry contents. Row r is written by point r / 2000. -/
theorem final3 (c : Dev nD) : (dat3 V c).arrAt 3 cfg3.N = layer3 V c :=
  (dat3 V c).arrAt_eq_of_cover 3 (layer3 V c) (fun t _ => flushed3 V c t) fun i => by
    have hi0 : (i 0).val < 20000 := (i 0).isLt
    have hi1 : (i 1).val < 128 := (i 1).isLt
    have hN : cfg3.N = 10 := N_3
    have ht : (i 0).val / 2000 < cfg3.N := by rw [hN]; omega
    obtain ⟨-, -, -, -, -, e0, e1⟩ := idx3 ⟨(i 0).val / 2000, ht⟩
    refine ⟨⟨(i 0).val / 2000, ht⟩, flush3_3 _, ?_⟩
    rw [mem_blk3]
    intro a
    match a with
    | ⟨0, _⟩ => show win3_3.index ⟨(i 0).val / 2000, ht⟩ (0 : Fin 2) * 2000 ≤ (i 0).val ∧ (i 0).val < win3_3.index ⟨(i 0).val / 2000, ht⟩ (0 : Fin 2) * 2000 + 2000; rw [e0]; show (i 0).val / 2000 * 2000 ≤ (i 0).val ∧ (i 0).val < (i 0).val / 2000 * 2000 + 2000; omega
    | ⟨1, _⟩ => show win3_3.index ⟨(i 0).val / 2000, ht⟩ (1 : Fin 2) * 128 ≤ (i 1).val ∧ (i 1).val < win3_3.index ⟨(i 0).val / 2000, ht⟩ (1 : Fin 2) * 128 + 128; rw [e1]; omega

end

end Cert.KernelIdeal.Hand

end
-- ==== Proof.Chain.lean ====
/-
  The result array of the whole program, read through the eight boundaries back to the launch memory: it is the network
  of the eight argument arrays.
  At each boundary the contents of the buffers that matter are named: the source and target vectors (computed once,
  before the first launch, and never written again), the argument arrays (never written), and the output of the launch
  just finished — the first, second and third layer's features in turn. A host stretch turns these into the next
  launch's operands (the aggregation along the edges, the features themselves, one slice of each stacked parameter);
  the launch turns its operands into the layer of them. The last launch turns the third layer's features, the output
  matrix and the output bias into the result.
-/
import proofs.«159242_j62079457296459_1_alg».proof.Proof.Gen.KernelIdeal.Frame
import proofs.«159242_j62079457296459_1_alg».proof.Proof.Spec
import proofs.«159242_j62079457296459_1_alg».proof.Proof.Keep
import proofs.«159242_j62079457296459_1_alg».proof.Proof.Stretch0
import proofs.«159242_j62079457296459_1_alg».proof.Proof.Stretch1
import proofs.«159242_j62079457296459_1_alg».proof.Proof.Stretch2
import proofs.«159242_j62079457296459_1_alg».proof.Proof.Stretch3
import proofs.«159242_j62079457296459_1_alg».proof.Proof.Blocks0
import proofs.«159242_j62079457296459_1_alg».proof.Proof.Blocks1
import proofs.«159242_j62079457296459_1_alg».proof.Proof.Blocks2
import proofs.«159242_j62079457296459_1_alg».proof.Proof.Blocks3

set_option maxRecDepth 16384

noncomputable section

namespace Cert.KernelIdeal.Hand

open Cert.KernelIdeal Cert.KernelIdeal.Gen Idealize.ShloMosaic Idealize.ShloMosaic.TcCoe Idealize.SL.Sem
open Cert.ReferenceIdeal (Spec.src Spec.dst Spec.agg Spec.layer Spec.mat0 Spec.mat1 Spec.mat2 Spec.vec0 Spec.vec1 Spec.vec2 Spec.h1 Spec.h2 Spec.h3 Spec.net)

variable (m : (ℓ : Loc nD τ sig) → Buf (Elt Ideal) ℓ) (ρ : Dev nD → PrngReg) (c : Dev nD)

/-- Rounding to the half-width format is the identity on the extended reals. -/
theorem truncf_id {s : Shape} (a : FVec Ideal s .f32) (h : FTy.bf16.bits < FTy.f32.bits) : truncf (F := Ideal) .bf16 a h = a := rfl

/-! ## The launch memory at the arguments -/

theorem at0 (b : Ref sig .tc) : W0 m ρ c (Proc.devRef .tc b) = m ((c : Thread nD τ).loc b) := rfl

/-! ## Boundary 1: after the first host stretch -/

theorem w1_src : W1 m ρ c (Proc.devRef .tc main_v1) = Spec.src (m ((c : Thread nD τ).loc main_arg1)) := s0_src (W0 m ρ c)
theorem w1_dst : W1 m ρ c (Proc.devRef .tc main_v3) = Spec.dst (m ((c : Thread nD τ).loc main_arg1)) := s0_dst (W0 m ρ c)
theorem w1_arg2 : W1 m ρ c (Proc.devRef .tc main_arg2) = m ((c : Thread nD τ).loc main_arg2) := keep0_arg2 (W0 m ρ c)
theorem w1_arg3 : W1 m ρ c (Proc.devRef .tc main_arg3) = m ((c : Thread nD τ).loc main_arg3) := keep0_arg3 (W0 m ρ c)
theorem w1_arg4 : W1 m ρ c (Proc.devRef .tc main_arg4) = m ((c : Thread nD τ).loc main_arg4) := keep0_arg4 (W0 m ρ c)
theorem w1_arg5 : W1 m ρ c (Proc.devRef .tc main_arg5) = m ((c : Thread nD τ).loc main_arg5) := keep0_arg5 (W0 m ρ c)
theorem w1_arg6 : W1 m ρ c (Proc.devRef .tc main_arg6) = m ((c : Thread nD τ).loc main_arg6) := keep0_arg6 (W0 m ρ c)
theorem w1_arg7 : W1 m ρ c (Proc.devRef .tc main_arg7) = m ((c : Thread nD τ).loc main_arg7) := keep0_arg7 (W0 m ρ c)

/-- The first launch's layer of its entry contents is the first layer of the network. -/
theorem layer0_eq : layer0 (V1 m ρ) c
    = Spec.h1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have e0 : V1 m ρ c main_v23 = _ := s0_agg (W0 m ρ c)
  have e1 : V1 m ρ c main_v24 = _ := s0_h (W0 m ρ c)
  have e2 : V1 m ρ c main_v25 = _ := s0_wl (W0 m ρ c)
  have e3 : V1 m ρ c main_v26 = _ := s0_wr (W0 m ρ c)
  have e4 : V1 m ρ c main_v20 = _ := s0_b (W0 m ρ c)
  unfold layer0
  rw [e0, e1, e2, e3, e4]
  simp only [truncf_id]
  rfl

/-! ## Boundary 2: after the first launch -/

theorem w2_h : W2 m ρ c (Proc.devRef .tc main_v27)
    = Spec.h1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W2_arr m ρ c 5).trans ((final0 (V1 m ρ) c).trans (layer0_eq m ρ c))
theorem w2_src : W2 m ρ c (Proc.devRef .tc main_v1) = Spec.src (m ((c : Thread nD τ).loc main_arg1)) :=
  (W2_of_ne m ρ c main_v1 (by decide)).trans (w1_src m ρ c)
theorem w2_dst : W2 m ρ c (Proc.devRef .tc main_v3) = Spec.dst (m ((c : Thread nD τ).loc main_arg1)) :=
  (W2_of_ne m ρ c main_v3 (by decide)).trans (w1_dst m ρ c)
theorem w2_arg2 : W2 m ρ c (Proc.devRef .tc main_arg2) = m ((c : Thread nD τ).loc main_arg2) := (W2_of_ne m ρ c main_arg2 (by decide)).trans (w1_arg2 m ρ c)
theorem w2_arg3 : W2 m ρ c (Proc.devRef .tc main_arg3) = m ((c : Thread nD τ).loc main_arg3) := (W2_of_ne m ρ c main_arg3 (by decide)).trans (w1_arg3 m ρ c)
theorem w2_arg4 : W2 m ρ c (Proc.devRef .tc main_arg4) = m ((c : Thread nD τ).loc main_arg4) := (W2_of_ne m ρ c main_arg4 (by decide)).trans (w1_arg4 m ρ c)
theorem w2_arg5 : W2 m ρ c (Proc.devRef .tc main_arg5) = m ((c : Thread nD τ).loc main_arg5) := (W2_of_ne m ρ c main_arg5 (by decide)).trans (w1_arg5 m ρ c)
theorem w2_arg6 : W2 m ρ c (Proc.devRef .tc main_arg6) = m ((c : Thread nD τ).loc main_arg6) := (W2_of_ne m ρ c main_arg6 (by decide)).trans (w1_arg6 m ρ c)
theorem w2_arg7 : W2 m ρ c (Proc.devRef .tc main_arg7) = m ((c : Thread nD τ).loc main_arg7) := (W2_of_ne m ρ c main_arg7 (by decide)).trans (w1_arg7 m ρ c)

/-- The second launch's layer of its entry contents is the second layer of the network. -/
theorem layer1_eq : layer1 (V3 m ρ) c
    = Spec.h2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have e0 : V3 m ρ c main_v47 = _ := s1_agg (W2 m ρ c)
  have e1 : V3 m ρ c main_v48 = _ := s1_h (W2 m ρ c)
  have e2 : V3 m ρ c main_v49 = _ := s1_wl (W2 m ρ c)
  have e3 : V3 m ρ c main_v50 = _ := s1_wr (W2 m ρ c)
  have e4 : V3 m ρ c main_v44 = _ := s1_b (W2 m ρ c)
  unfold layer1
  rw [e0, e1, e2, e3, e4, w2_h, w2_src, w2_dst, w2_arg2, w2_arg3, w2_arg4, w2_arg5]
  simp only [truncf_id]
  rfl

/-! ## Boundaries 3 and 4: after the second stretch and the second launch -/

theorem w4_h : W4 m ρ c (Proc.devRef .tc main_v51)
    = Spec.h2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W4_arr m ρ c 5).trans ((final1 (V3 m ρ) c).trans (layer1_eq m ρ c))
theorem w4_src : W4 m ρ c (Proc.devRef .tc main_v1) = Spec.src (m ((c : Thread nD τ).loc main_arg1)) :=
  (W4_of_ne m ρ c main_v1 (by decide)).trans ((keep1_v1 (W2 m ρ c)).trans (w2_src m ρ c))
theorem w4_dst : W4 m ρ c (Proc.devRef .tc main_v3) = Spec.dst (m ((c : Thread nD τ).loc main_arg1)) :=
  (W4_of_ne m ρ c main_v3 (by decide)).trans ((keep1_v3 (W2 m ρ c)).trans (w2_dst m ρ c))
theorem w4_arg2 : W4 m ρ c (Proc.devRef .tc main_arg2) = m ((c : Thread nD τ).loc main_arg2) := (W4_of_ne m ρ c main_arg2 (by decide)).trans ((keep1_arg2 (W2 m ρ c)).trans (w2_arg2 m ρ c))
theorem w4_arg3 : W4 m ρ c (Proc.devRef .tc main_arg3) = m ((c : Thread nD τ).loc main_arg3) := (W4_of_ne m ρ c main_arg3 (by decide)).trans ((keep1_arg3 (W2 m ρ c)).trans (w2_arg3 m ρ c))
theorem w4_arg4 : W4 m ρ c (Proc.devRef .tc main_arg4) = m ((c : Thread nD τ).loc main_arg4) := (W4_of_ne m ρ c main_arg4 (by decide)).trans ((keep1_arg4 (W2 m ρ c)).trans (w2_arg4 m ρ c))
theorem w4_arg5 : W4 m ρ c (Proc.devRef .tc main_arg5) = m ((c : Thread nD τ).loc main_arg5) := (W4_of_ne m ρ c main_arg5 (by decide)).trans ((keep1_arg5 (W2 m ρ c)).trans (w2_arg5 m ρ c))
theorem w4_arg6 : W4 m ρ c (Proc.devRef .tc main_arg6) = m ((c : Thread nD τ).loc main_arg6) := (W4_of_ne m ρ c main_arg6 (by decide)).trans ((keep1_arg6 (W2 m ρ c)).trans (w2_arg6 m ρ c))
theorem w4_arg7 : W4 m ρ c (Proc.devRef .tc main_arg7) = m ((c : Thread nD τ).loc main_arg7) := (W4_of_ne m ρ c main_arg7 (by decide)).trans ((keep1_arg7 (W2 m ρ c)).trans (w2_arg7 m ρ c))

/-- The third launch's layer of its entry contents is the third layer of the network. -/
theorem layer2_eq : layer2 (V5 m ρ) c
    = Spec.h3 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have e0 : V5 m ρ c main_v71 = _ := s2_agg (W4 m ρ c)
  have e1 : V5 m ρ c main_v72 = _ := s2_h (W4 m ρ c)
  have e2 : V5 m ρ c main_v73 = _ := s2_wl (W4 m ρ c)
  have e3 : V5 m ρ c main_v74 = _ := s2_wr (W4 m ρ c)
  have e4 : V5 m ρ c main_v68 = _ := s2_b (W4 m ρ c)
  unfold layer2
  rw [e0, e1, e2, e3, e4, w4_h, w4_src, w4_dst, w4_arg2, w4_arg3, w4_arg4, w4_arg5]
  simp only [truncf_id]
  rfl

/-! ## Boundaries 5 to 7: after the third stretch, the third launch and the last stretch -/

theorem w6_h : W6 m ρ c (Proc.devRef .tc main_v75)
    = Spec.h3 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W6_arr m ρ c 5).trans ((final2 (V5 m ρ) c).trans (layer2_eq m ρ c))
theorem w6_arg6 : W6 m ρ c (Proc.devRef .tc main_arg6) = m ((c : Thread nD τ).loc main_arg6) := (W6_of_ne m ρ c main_arg6 (by decide)).trans ((keep2_arg6 (W4 m ρ c)).trans (w4_arg6 m ρ c))
theorem w6_arg7 : W6 m ρ c (Proc.devRef .tc main_arg7) = m ((c : Thread nD τ).loc main_arg7) := (W6_of_ne m ρ c main_arg7 (by decide)).trans ((keep2_arg7 (W4 m ρ c)).trans (w4_arg7 m ρ c))
theorem w7_arg7 : W7 m ρ c (Proc.devRef .tc main_arg7) = m ((c : Thread nD τ).loc main_arg7) := (keep3_arg7 (W6 m ρ c)).trans (w6_arg7 m ρ c)

/-- The last launch's layer of its entry contents is the network's result. -/
theorem layer3_eq : layer3 (V7 m ρ) c
    = Spec.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have e0 : V7 m ρ c main_v76 = _ := s3_h (W6 m ρ c)
  have e1 : V7 m ρ c main_v77 = _ := s3_w (W6 m ρ c)
  have e2 : V7 m ρ c main_arg7 = _ := w7_arg7 m ρ c
  unfold layer3
  rw [e0, e1, e2, w6_h, w6_arg6]
  simp only [truncf_id]
  rfl

/-- THE RESULT ARRAY at the last boundary is the network of the launch contents of the arguments. -/
theorem result_eq : W8 m ρ c (Proc.devRef .tc main_v78)
    = Spec.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W8_arr m ρ c 3).trans ((final3 (V7 m ρ) c).trans (layer3_eq m ρ c))

end Cert.KernelIdeal.Hand

end
-- ==== Proof.RefValue.lean ====
/-
  The reference program computes the network: its result, read one host operation at a time, is the function `net` of
  its arguments. Each layer is the host's (product + bias) + product followed by a maximum with zero, which is the
  layer's entry with the bias added last, because addition of extended reals is commutative and associative; the
  aggregation inside is the same host operations the specification names, untouched.
-/
import proofs.«159242_j62079457296459_1_alg».proof.Proof.Gen.ReferenceIdeal.Read
import proofs.«159242_j62079457296459_1_alg».proof.Proof.Spec
import proofs.«159242_j62079457296459_1_alg».proof.Proof.LibHostDense

noncomputable section

namespace Cert.ReferenceIdeal.RefValue

open Cert.ReferenceIdeal Cert.ReferenceIdeal.Read Idealize.ShloMosaic Idealize.ShloMosaic.ValueIdx Idealize.ShloMosaic.TcCoe Idealize.SL.Sem
open Facts₀ Facts

abbrev dR := dot_S20000x256_S256x256_S20000x256_1_0_0_1_n_n
abbrev dO := dot_S20000x256_S256x128_S20000x128_1_0_0_1_n_n

/-- The host's [20000, 256] x [256, 256] product reads rows of the left operand against columns of the right one. -/
theorem dR_rows : Cert.Sage.RowsByCols (R := 20000) (K := 256) (N := 256) dR :=
  ⟨rfl, rfl, lhs_main_v19_0, lhs_main_v19_1, rhs_main_v19_0, rhs_main_v19_1⟩

/-- The same for the [20000, 256] x [256, 128] product of the output layer. -/
theorem dO_rows : Cert.Sage.RowsByCols (R := 20000) (K := 256) (N := 128) dO :=
  ⟨rfl, rfl, lhs_main_v82_0, lhs_main_v82_1, rhs_main_v82_0, rhs_main_v82_1⟩

variable (x0 : FVec Ideal S20000x256 .f32) (x1 : IVec S2x320000 32) (x2 : FVec Ideal S320000 .f32)
  (x3 : FVec Ideal S3x256x256 .f32) (x4 : FVec Ideal S3x256 .f32) (x5 : FVec Ideal S3x256x256 .f32)
  (x6 : FVec Ideal S256x128 .f32) (x7 : FVec Ideal S128 .f32)

/-- The first layer. -/
theorem layer1_eq : val_main_v29 (F := Ideal) x0 x1 x2 x3 x4 x5 = Spec.h1 x0 x1 x2 x3 x4 x5 := by
  unfold val_main_v29 val_main_v28 val_main_v24 val_main_v27 val_main_v19 val_main_v23 val_main_v22 val_main_call0_v0 val_main_call0_cst
  refine (Cert.Sage.host_convRelu dR dR_rows (val_main_v16 (F := Ideal) x0 x1 x2) x0 (val_main_v18 (F := Ideal) x3) (val_main_v26 (F := Ideal) x5)
    (val_main_v21 (F := Ideal) x4) bcast_S256_S1x256_1 bcast_S1x256_S20000x256_0_1 (by decide) bcast_S_S20000x256).trans ?_
  rfl

/-- The second layer, over the first. -/
theorem layer2_eq : val_main_v55 (F := Ideal) x0 x1 x2 x3 x4 x5 = Spec.h2 x0 x1 x2 x3 x4 x5 := by
  unfold val_main_v55 val_main_v54 val_main_v50 val_main_v53 val_main_v45 val_main_v49 val_main_v48 val_main_call1_v0 val_main_call1_cst
  refine (Cert.Sage.host_convRelu dR dR_rows (val_main_v42 (F := Ideal) x0 x1 x2 x3 x4 x5) (val_main_v29 (F := Ideal) x0 x1 x2 x3 x4 x5)
    (val_main_v44 (F := Ideal) x3) (val_main_v52 (F := Ideal) x5)
    (val_main_v47 (F := Ideal) x4) bcast_S256_S1x256_1 bcast_S1x256_S20000x256_0_1 (by decide) bcast_S_S20000x256).trans ?_
  unfold Spec.h2
  rw [← layer1_eq]
  unfold val_main_v42 val_main_v39 val_main_v36
  rfl

/-- The third layer, over the second. -/
theorem layer3_eq : val_main_v81 (F := Ideal) x0 x1 x2 x3 x4 x5 = Spec.h3 x0 x1 x2 x3 x4 x5 := by
  unfold val_main_v81 val_main_v80 val_main_v76 val_main_v79 val_main_v71 val_main_v75 val_main_v74 val_main_call2_v0 val_main_call2_cst
  refine (Cert.Sage.host_convRelu dR dR_rows (val_main_v68 (F := Ideal) x0 x1 x2 x3 x4 x5) (val_main_v55 (F := Ideal) x0 x1 x2 x3 x4 x5)
    (val_main_v70 (F := Ideal) x3) (val_main_v78 (F := Ideal) x5)
    (val_main_v73 (F := Ideal) x4) bcast_S256_S1x256_1 bcast_S1x256_S20000x256_0_1 (by decide) bcast_S_S20000x256).trans ?_
  unfold Spec.h3
  rw [← layer2_eq]
  unfold val_main_v68 val_main_v65 val_main_v62
  rfl

/-- The output layer: the host's product plus the bias placed along a row and repeated down the rows, then the
    maximum with zero, entry by entry. -/
theorem net_eq : val_main_v86 (F := Ideal) x0 x1 x2 x3 x4 x5 x6 x7 = Spec.net x0 x1 x2 x3 x4 x5 x6 x7 := by
  unfold val_main_v86 val_main_v85 val_main_v82 val_main_v84 val_main_v83 val_main_call3_v0 val_main_call3_cst Spec.net
  rw [layer3_eq]
  generalize Spec.h3 x0 x1 x2 x3 x4 x5 = h
  funext i
  obtain ⟨p, q, rfl⟩ : ∃ (p : Fin 20000) (q : Fin 128), i = ix2 p q := ⟨i 0, i 1, eq_ix2 i⟩
  rw [Cert.HostDense.maxZero_apply, addf_apply,
    Cert.HostDense.dotGeneral_rows dO dO_rows.rank dO_rows.size dO_rows.lhs0 dO_rows.lhs1 dO_rows.rhs0 dO_rows.rhs1,
    Cert.HostDense.rowOfVector_apply]
  rfl

/-- The reference run's result term is the network of the launch contents of its arguments. -/
theorem result_eq (m : (ℓ : Loc nD τ sig) → Buf (Elt Ideal) ℓ) (c : Dev nD) :
    Cert.ReferenceIdeal.Value.res_main_v86 (F := Ideal) m c
      = Spec.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) :=
  (val_main_v86_eq (F := Ideal) m c).trans (net_eq _ _ _ _ _ _ _ _)

end Cert.ReferenceIdeal.RefValue

end
-- ==== Proof.lean ====
/-
  A three-layer graph convolution with an output layer, computed by four launches of compute kernels among host
  operations, against its plain reference: over the extended reals the two programs give the same [20000, 128] array.

  Both programs aggregate neighbour features with the SAME host operations (a gather of rows by edge source, a product
  by the edge weight, a sum of rows by edge target), so the aggregation is carried as one function and never opened.
  A layer maps node i to  max( agg_i W_rel + h_i W_root + b , 0 ).  The kernels add the two matrix products first and the
  bias last, the reference adds the bias to the first product and the second product last; addition of extended reals is
  commutative and associative, so the two agree at every entry with no finiteness needed. The kernels hold their
  operands in a half-width float format, which changes nothing on the extended reals; a kernel's matrix product into a
  zero accumulator and the host's general product are the same sum over the contracted axis; and the kernels work on
  blocks of 2000 rows, which does not matter because an entry of a layer depends on one row of the features only.

  The modules: Spec (the network as one function), RefValue (the reference computes it), Body (a kernel's stored value
  at an entry), BlocksCommon / Blocks0..3 (from the blocks a launch writes to its whole output array), Keep and
  Stretch0..3 (the host operations around the launches), KernelRun (the run of the four launches with its result
  named), Chain (the result read back through the boundaries to the arguments).
  No idealization rewrote the kernel's text, so the idealized kernel is the kernel read over the extended reals.
-/
import proofs.«159242_j62079457296459_1_alg».proof.Defs
import proofs.«159242_j62079457296459_1_alg».proof.Proof.Gen.Kernel
import proofs.«159242_j62079457296459_1_alg».proof.Proof.Gen.Kernel.Frame
import proofs.«159242_j62079457296459_1_alg».proof.Proof.Gen.KernelIdeal
import proofs.«159242_j62079457296459_1_alg».proof.Proof.Gen.KernelIdeal.Frame
import proofs.«159242_j62079457296459_1_alg».proof.Proof.Gen.ReferenceIdeal
import proofs.«159242_j62079457296459_1_alg».proof.Proof.Gen.ReferenceIdeal.Run
import proofs.«159242_j62079457296459_1_alg».proof.Proof.Gen.ReferenceIdeal.Read
import proofs.«159242_j62079457296459_1_alg».proof.Proof.Gen.Pre_finite_inputs
import proofs.«159242_j62079457296459_1_alg».proof.Proof.KernelRun
import proofs.«159242_j62079457296459_1_alg».proof.Proof.Chain
import proofs.«159242_j62079457296459_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten to idealize the kernel. -/
theorem preserves : Cert.preserves_Kernel_KernelIdeal := trivial

/-- From memories that agree on the arguments both programs end with the network of the arguments in their result
    array, and the arguments unchanged. -/
theorem algebraic : Cert.algebraic_KernelIdeal_ReferenceIdeal := by
  intro m ρ m' ρ' _ hagree
  refine ⟨fun c => Cert.ReferenceIdeal.Spec.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.result_eq m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
